-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S4096 : Shape := ⟨1, ![4096]⟩
abbrev S128x256 : Shape := ⟨2, ![128, 256]⟩
abbrev S128 : Shape := ⟨1, ![128]⟩
abbrev S128x128 : Shape := ⟨2, ![128, 128]⟩
abbrev S50000x128 : Shape := ⟨2, ![50000, 128]⟩
abbrev S100000x128 : Shape := ⟨2, ![100000, 128]⟩
abbrev S50000x1 : Shape := ⟨2, ![50000, 1]⟩
abbrev S100000x1 : Shape := ⟨2, ![100000, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S50000x128 : S_.BroadcastsInDim S50000x128 (![] : Fin 0 → Fin S50000x128.rank)
  reducesTo_S50000x128_S_d0_1 : S50000x128.ReducesTo [0, 1] S_
  bcast_S_S100000x128 : S_.BroadcastsInDim S100000x128 (![] : Fin 0 → Fin S100000x128.rank)
  reducesTo_S100000x128_S_d0_1 : S100000x128.ReducesTo [0, 1] S_
  bcast_S_S50000x1 : S_.BroadcastsInDim S50000x1 (![] : Fin 0 → Fin S50000x1.rank)
  reducesTo_S50000x1_S_d0_1 : S50000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S1 .f32) (main_v63 : IVec S_ 1) (main_v67 : IVec S_ 1) : IVec S_ 1 :=
  let main_v68 : IVec S_ 1 := andi main_v63 main_v67
  let main_v69 : FVec F S1 .f32 := Host.absf main_arg18
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg15 : FVec F S100000x128 .f32) (main_arg16 : FVec F S50000x1 .f32) (main_arg17 : FVec F S100000x1 .f32) (main_arg18 : FVec F S1 .f32) (main_v48 : IVec S_ 1) (main_v49 : FVec F S50000x128 .f32) (main_v50 : FVec F S50000x128 .f32) : IVec S_ 1 :=
  let main_v51 : IVec S50000x128 1 := cmpf .olt main_v49 main_v50
  let main_c_19 : IVec S_ 1 := constantI S_ 1 1#1
  let main_v52 : IVec S_ 1 := (fun x v => Host.reduce IntOp.andi x v reducesTo_S50000x128_S_d0_1 h_S_) main_v51 main_c_19
  let main_v53 : IVec S_ 1 := andi main_v48 main_v52
  let main_v54 : FVec F S100000x128 .f32 := Host.absf main_arg15
  let main_cst_20 : FVec F S_ .f32 := constant S_ .f32 0x7F800000#32
  let main_v55 : FVec F S100000x128 .f32 := broadcastInDim S100000x128 ![] bcast_S_S100000x128 main_cst_20
  let main_v56 : IVec S100000x128 1 := cmpf .olt main_v54 main_v55
  let main_c_21 : IVec S_ 1 := constantI S_ 1 1#1
  let main_v57 : IVec S_ 1 := (fun x v => Host.reduce IntOp.andi x v reducesTo_S100000x128_S_d0_1 h_S_) main_v56 main_c_21
  let main_v58 : IVec S_ 1 := andi main_v53 main_v57
  let main_v59 : FVec F S50000x1 .f32 := Host.absf main_arg16
  let main_cst_22 : FVec F S_ .f32 := constant S_ .f32 0x7F800000#32
  let main_v60 : FVec F S50000x1 .f32 := broadcastInDim S50000x1 ![] bcast_S_S50000x1 main_cst_22
  let main_v61 : IVec S50000x1 1 := cmpf .olt main_v59 main_v60
  let main_c_23 : IVec S_ 1 := constantI S_ 1 1#1
  let main_v62 : IVec S_ 1 := (fun x v => Host.reduce IntOp.andi x v reducesTo_S50000x1_S_d0_1 h_S_) main_v61 main_c_23
  let main_v63 : IVec S_ 1 := andi main_v58 main_v62
  let main_v64 : FVec F S100000x1 .f32 := Host.absf main_arg17
  let main_cst_24 : FVec F S_ .f32 := constant S_ .f32 0x7F800000#32
  let main_v65 : FVec F S100000x1 .f32 := broadcastInDim S100000x1 ![] bcast_S_S100000x1 main_cst_24
  let main_v66 : IVec S100000x1 1 := cmpf .olt main_v64 main_v65
  let main_c_25 : IVec S_ 1 := constantI S_ 1 1#1
  let main_v67 : IVec S_ 1 := (fun x v => Host.reduce IntOp.andi x v reducesTo_S100000x1_S_d0_1 h_S_) main_v66 main_c_25
  fn_part4 (F := F) main_arg18 main_v63 main_v67

def fn_part2 {F : FTy → Type} [FloatOps F] (main_arg11 : FVec F S128 .f32) (main_arg12 : FVec F S128 .f32) (main_arg13 : FVec F S128 .f32) (main_arg14 : FVec F S50000x128 .f32) (main_arg15 : FVec F S100000x128 .f32) (main_arg16 : FVec F S50000x1 .f32) (main_arg17 : FVec F S100000x1 .f32) (main_arg18 : FVec F S1 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S50000x128 .f32 := Host.absf main_arg14
  let main_cst_18 : FVec F S_ .f32 := constant S_ .f32 0x7F800000#32
  let main_v50 : FVec F S50000x128 .f32 := broadcastInDim S50000x128 ![] bcast_S_S50000x128 main_cst_18
  fn_part3 (F := F) main_arg15 main_arg16 main_arg17 main_arg18 main_v48 main_v49 main_v50

def fn_part1 {F : FTy → Type} [FloatOps F] (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S50000x128 .f32) (main_arg15 : FVec F S100000x128 .f32) (main_arg16 : FVec F S50000x1 .f32) (main_arg17 : FVec F S100000x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_arg13 main_arg14 main_arg15 main_arg16 main_arg17 main_arg18 main_v33

def fn {F : FTy → Type} [FloatOps F] (main_arg0 : FVec F S100000x256 .f32) (main_arg1 : IVec S800000 32) (main_arg2 : IVec S800000 32) (main_arg3 : FVec F S800000 .f32) (main_arg4 : IVec S4096 32) (main_arg5 : IVec S4096 32) (main_arg6 : FVec F S128x256 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S50000x128 .f32) (main_arg15 : FVec F S100000x128 .f32) (main_arg16 : FVec F S50000x1 .f32) (main_arg17 : FVec F S100000x1 .f32) (main_arg18 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_v13 main_v16
-- ==== Kernel.lean ====
abbrev S100000x256 : Shape := ⟨2, ![100000, 256]⟩
abbrev S800000 : Shape := ⟨1, ![800000]⟩
abbrev S4096 : Shape := ⟨1, ![4096]⟩
abbrev S128x256 : Shape := ⟨2, ![128, 256]⟩
abbrev S128 : Shape := ⟨1, ![128]⟩
abbrev S128x128 : Shape := ⟨2, ![128, 128]⟩
abbrev S50000x128 : Shape := ⟨2, ![50000, 128]⟩
abbrev S100000x128 : Shape := ⟨2, ![100000, 128]⟩
abbrev S50000x1 : Shape := ⟨2, ![50000, 1]⟩
abbrev S100000x1 : Shape := ⟨2, ![100000, 1]⟩
abbrev S1 : Shape := ⟨1, ![1]⟩
abbrev S256x128 : Shape := ⟨2, ![256, 128]⟩
abbrev S1x128 : Shape := ⟨2, ![1, 128]⟩
abbrev S5000x256 : Shape := ⟨2, ![5000, 256]⟩
abbrev S5000x128 : Shape := ⟨2, ![5000, 128]⟩
abbrev S800000x1 : Shape := ⟨2, ![800000, 1]⟩
abbrev S_ : Shape := ⟨0, ![]⟩
abbrev S800000x128 : Shape := ⟨2, ![800000, 128]⟩
abbrev S5000 : Shape := ⟨1, ![5000]⟩
abbrev S5000x1 : Shape := ⟨2, ![5000, 1]⟩
abbrev S4096x1 : Shape := ⟨2, ![4096, 1]⟩
abbrev S4096x128 : Shape := ⟨2, ![4096, 128]⟩
abbrev S4096x2 : Shape := ⟨2, ![4096, 2]⟩

abbrev nBuf : Space → Nat
  | .hbm => 118
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S4096, .i32⟩
  | .hbm, ⟨5, _⟩ => ⟨S4096, .i32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S50000x128, .f32⟩
  | .hbm, ⟨15, _⟩ => ⟨S100000x128, .f32⟩
  | .hbm, ⟨16, _⟩ => ⟨S50000x1, .f32⟩
  | .hbm, ⟨17, _⟩ => ⟨S100000x1, .f32⟩
  | .hbm, ⟨18, _⟩ => ⟨S1, .f32⟩
  | .hbm, ⟨19, _⟩ => ⟨S256x128, .f32⟩
  | .hbm, ⟨20, _⟩ => ⟨S1x128, .f32⟩
  | .hbm, ⟨21, _⟩ => ⟨S100000x128, .f32⟩
  | .hbm, ⟨22, _⟩ => ⟨S128x128, .f32⟩
  | .hbm, ⟨23, _⟩ => ⟨S128x128, .f32⟩
  | .hbm, ⟨24, _⟩ => ⟨S1x128, .f32⟩
  | .hbm, ⟨25, _⟩ => ⟨S1x128, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S100000x128, .f32⟩
  | .hbm, ⟨40, _⟩ => ⟨S800000x1, .i32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S800000x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S100000x128, .f32⟩
  | .hbm, ⟨58, _⟩ => ⟨S800000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S4096x1, .i32⟩
  | .hbm, ⟨72, _⟩ => ⟨S4096x128, .f32⟩
  | .hbm, ⟨73, _⟩ => ⟨S_, .i32⟩
  | .hbm, ⟨74, _⟩ => ⟨S4096, .i32⟩
  | .hbm, ⟨75, _⟩ => ⟨S4096, .i1⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S4096, .i32⟩
  | .hbm, ⟨80, _⟩ => ⟨S4096x1, .i32⟩
  | .hbm, ⟨81, _⟩ => ⟨S4096x128, .f32⟩
  | .hbm, ⟨82, _⟩ => ⟨S_, .i32⟩
  | .hbm, ⟨83, _⟩ => ⟨S4096, .i32⟩
  | .hbm, ⟨84, _⟩ => ⟨S4096, .i1⟩
  | .hbm, ⟨85, _⟩ => ⟨S_, .i32⟩
  | .hbm, ⟨86, _⟩ => ⟨S4096, .i32⟩
  | .hbm, ⟨87, _⟩ => ⟨S4096, .i32⟩
  | .hbm, ⟨88, _⟩ => ⟨S4096, .i32⟩
  | .hbm, ⟨89, _⟩ => ⟨S_, .i32⟩
  | .hbm, ⟨90, _⟩ => ⟨S4096, .i32⟩
  | .hbm, ⟨91, _⟩ => ⟨S4096, .i32⟩
  | .hbm, ⟨92, _⟩ => ⟨S4096x1, .i32⟩
  | .hbm, ⟨93, _⟩ => ⟨S4096x1, .i32⟩
  | .hbm, ⟨94, _⟩ => ⟨S4096x2, .i32⟩
  | .hbm, ⟨95, _⟩ => ⟨S4096, .f32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S_, .i32⟩
  | .hbm, ⟨100, _⟩ => ⟨S4096, .i32⟩
  | .hbm, ⟨101, _⟩ => ⟨S4096, .i32⟩
  | .hbm, ⟨102, _⟩ => ⟨S4096, .i32⟩
  | .hbm, ⟨103, _⟩ => ⟨S_, .i32⟩
  | .hbm, ⟨104, _⟩ => ⟨S4096, .i32⟩
  | .hbm, ⟨105, _⟩ => ⟨S4096, .i32⟩
  | .hbm, ⟨106, _⟩ => ⟨S4096x1, .i32⟩
  | .hbm, ⟨107, _⟩ => ⟨S4096x1, .i32⟩
  | .hbm, ⟨108, _⟩ => ⟨S4096x2, .i32⟩
  | .hbm, ⟨109, _⟩ => ⟨S4096, .f32⟩
  | .hbm, ⟨110, _⟩ => ⟨S_, .f32⟩
  | .hbm, ⟨111, _⟩ => ⟨S4096, .f32⟩
  | .hbm, ⟨112, _⟩ => ⟨S4096, .f32⟩
  | .hbm, ⟨113, _⟩ => ⟨S4096, .f32⟩
  | .hbm, ⟨114, _⟩ => ⟨S4096x128, .f32⟩
  | .hbm, ⟨115, _⟩ => ⟨S_, .f32⟩
  | .hbm, ⟨116, _⟩ => ⟨S4096, .f32⟩
  | .hbm, ⟨117, _⟩ => ⟨S4096, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_1 : Ref sig .tc := ⟨.hbm, 45, rfl⟩
abbrev main_v23 : Ref sig .tc := ⟨.hbm, 46, rfl⟩
abbrev main_v24 : Ref sig .tc := ⟨.hbm, 47, rfl⟩
abbrev main_c_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_4 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_6 : Ref sig .tc := ⟨.hbm, 73, rfl⟩
abbrev main_v46 : Ref sig .tc := ⟨.hbm, 74, rfl⟩
abbrev main_v47 : Ref sig .tc := ⟨.hbm, 75, rfl⟩
abbrev main_c_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_8 : Ref sig .tc := ⟨.hbm, 82, rfl⟩
abbrev main_v53 : Ref sig .tc := ⟨.hbm, 83, rfl⟩
abbrev main_v54 : Ref sig .tc := ⟨.hbm, 84, rfl⟩
abbrev main_c_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_11 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_14 : Ref sig .tc := ⟨.hbm, 115, rfl⟩
abbrev main_v80 : Ref sig .tc := ⟨.hbm, 116, rfl⟩
abbrev main_v81 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S128x256_S256x128_1_0 : S128x256.Transposes [1, 0] S256x128
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  transposes_S128x128_S128x128_1_0 : S128x128.Transposes [1, 0] S128x128
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S5000 : S5000x128.Reduces [1] S5000
  shapeCasts_S5000_S5000x1 : S5000.ShapeCasts S5000x1
  broadcasts_S5000x1_S5000x128 : S5000x1.Broadcasts S5000x128
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  shapeCasts_S1_S_ : S1.ShapeCasts S_
  reducesTo_S4096x128_S4096_d1 : S4096x128.ReducesTo [1] S4096
  h_S_ : 0 < S_.numel
  dot_S5000x256_S256x128_S5000x128_1_0_0_1_n_n_wf : DotDims.WF S5000x256 S256x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  gather_S50000x128_S4096x1_S4096x128_1_0_n_n_0_1_1128_wf : GatherDims.WF S50000x128 S4096x1 S4096x128 [1] [0] [] [0] [] 1 ![1, 128]
  gather_S100000x128_S4096x1_S4096x128_1_0_n_n_0_1_1128_wf : GatherDims.WF S100000x128 S4096x1 S4096x128 [1] [0] [] [0] [] 1 ![1, 128]
  gather_S50000x1_S4096x2_S4096_n_01_n_n_01_1_11_wf : GatherDims.WF S50000x1 S4096x2 S4096 [] [0, 1] [] [0, 1] [] 1 ![1, 1]
  gather_S100000x1_S4096x2_S4096_n_01_n_n_01_1_11_wf : GatherDims.WF S100000x1 S4096x2 S4096 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S50000x1_S4096x2_S4096_n_01_n_n_01_1_11 : GatherDims S50000x1 S4096x2 S4096 where
  offsetDims := []
  collapsedSliceDims := [0, 1]
  operandBatchingDims := []
  startIndicesBatchingDims := []
  startIndexMap := [0, 1]
  indexVectorDim := 1
  sliceSizes := ![1, 1]
  wf := gather_S50000x1_S4096x2_S4096_n_01_n_n_01_1_11_wf
def gather_S100000x1_S4096x2_S4096_n_01_n_n_01_1_11 : GatherDims S100000x1 S4096x2 S4096 where
  offsetDims := []
  collapsedSliceDims := [0, 1]
  operandBatchingDims := []
  startIndicesBatchingDims := []
  startIndexMap := [0, 1]
  indexVectorDim := 1
  sliceSizes := ![1, 1]
  wf := gather_S100000x1_S4096x2_S4096_n_01_n_n_01_1_11_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S800000 : Shape := ⟨1, ![800000]⟩
abbrev S4096 : Shape := ⟨1, ![4096]⟩
abbrev S128x256 : Shape := ⟨2, ![128, 256]⟩
abbrev S128 : Shape := ⟨1, ![128]⟩
abbrev S128x128 : Shape := ⟨2, ![128, 128]⟩
abbrev S50000x128 : Shape := ⟨2, ![50000, 128]⟩
abbrev S100000x128 : Shape := ⟨2, ![100000, 128]⟩
abbrev S50000x1 : Shape := ⟨2, ![50000, 1]⟩
abbrev S100000x1 : Shape := ⟨2, ![100000, 1]⟩
abbrev S1 : Shape := ⟨1, ![1]⟩
abbrev S256x128 : Shape := ⟨2, ![256, 128]⟩
abbrev S1x128 : Shape := ⟨2, ![1, 128]⟩
abbrev S800000x1 : Shape := ⟨2, ![800000, 1]⟩
abbrev S_ : Shape := ⟨0, ![]⟩
abbrev S800000x128 : Shape := ⟨2, ![800000, 128]⟩
abbrev S100000 : Shape := ⟨1, ![100000]⟩
abbrev S4096x1 : Shape := ⟨2, ![4096, 1]⟩
abbrev S4096x128 : Shape := ⟨2, ![4096, 128]⟩
abbrev S4096x2 : Shape := ⟨2, ![4096, 2]⟩

abbrev nBuf : Space → Nat
  | .hbm => 186
  | .vmem => 0
  | .smem => 0
  | _ => 0

abbrev hbmTy0_0 (i : Nat) : BufTy := match i % 128 with
  | 0 => ⟨S100000x256, .f32⟩
  | 1 => ⟨S800000, .i32⟩
  | 2 => ⟨S800000, .i32⟩
  | 3 => ⟨S800000, .f32⟩
  | 4 => ⟨S4096, .i32⟩
  | 5 => ⟨S4096, .i32⟩
  | 6 => ⟨S128x256, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S50000x128, .f32⟩
  | 15 => ⟨S100000x128, .f32⟩
  | 16 => ⟨S50000x1, .f32⟩
  | 17 => ⟨S100000x1, .f32⟩
  | 18 => ⟨S1, .f32⟩
  | 19 => ⟨S256x128, .f32⟩
  | 20 => ⟨S100000x128, .f32⟩
  | 21 => ⟨S1x128, .f32⟩
  | 22 => ⟨S100000x128, .f32⟩
  | 23 => ⟨S100000x128, .f32⟩
  | 24 => ⟨S800000x1, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S800000x128, .f32⟩
  | 35 => ⟨S800000x128, .f32⟩
  | 36 => ⟨S_, .f32⟩
  | 37 => ⟨S100000x128, .f32⟩
  | 38 => ⟨S800000x1, .i32⟩
  | 39 => ⟨S100000x128, .f32⟩
  | 40 => ⟨S128x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S_, .f32⟩
  | 49 => ⟨S100000, .f32⟩
  | 50 => ⟨S100000x1, .f32⟩
  | 51 => ⟨S_, .f32⟩
  | 52 => ⟨S100000x1, .f32⟩
  | 53 => ⟨S100000x1, .f32⟩
  | 54 => ⟨S100000x128, .f32⟩
  | 55 => ⟨S100000x128, .f32⟩
  | 56 => ⟨S100000x128, .f32⟩
  | 57 => ⟨S_, .f32⟩
  | 58 => ⟨S100000, .f32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S_, .f32⟩
  | 66 => ⟨S100000x1, .f32⟩
  | 67 => ⟨S100000x1, .f32⟩
  | 68 => ⟨S100000x1, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S800000x1, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x128, .f32⟩
  | 88 => ⟨S800000x128, .f32⟩
  | 89 => ⟨S_, .f32⟩
  | 90 => ⟨S100000x128, .f32⟩
  | 91 => ⟨S800000x1, .i32⟩
  | 92 => ⟨S100000x128, .f32⟩
  | 93 => ⟨S128x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .f32⟩
  | 102 => ⟨S100000, .f32⟩
  | 103 => ⟨S100000x1, .f32⟩
  | 104 => ⟨S_, .f32⟩
  | 105 => ⟨S100000x1, .f32⟩
  | 106 => ⟨S100000x1, .f32⟩
  | 107 => ⟨S100000x128, .f32⟩
  | 108 => ⟨S100000x128, .f32⟩
  | 109 => ⟨S100000x128, .f32⟩
  | 110 => ⟨S_, .f32⟩
  | 111 => ⟨S100000, .f32⟩
  | 112 => ⟨S100000x1, .f32⟩
  | 113 => ⟨S_, .f32⟩
  | 114 => ⟨S100000x1, .f32⟩
  | 115 => ⟨S100000x1, .f32⟩
  | 116 => ⟨S100000x128, .f32⟩
  | 117 => ⟨S100000x128, .f32⟩
  | 118 => ⟨S_, .f32⟩
  | 119 => ⟨S100000x1, .f32⟩
  | 120 => ⟨S100000x1, .f32⟩
  | 121 => ⟨S100000x1, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S1x128, .f32⟩
  | _ => ⟨S100000x256, .f32⟩

abbrev hbmTy0_1 (i : Nat) : BufTy := match i % 128 with
  | 0 => ⟨S100000x128, .f32⟩
  | 1 => ⟨S100000x128, .f32⟩
  | 2 => ⟨S100000x128, .f32⟩
  | 3 => ⟨S100000x128, .f32⟩
  | 4 => ⟨S_, .i32⟩
  | 5 => ⟨S4096, .i32⟩
  | 6 => ⟨S4096, .i1⟩
  | 7 => ⟨S_, .i32⟩
  | 8 => ⟨S4096, .i32⟩
  | 9 => ⟨S4096, .i32⟩
  | 10 => ⟨S4096, .i32⟩
  | 11 => ⟨S4096x1, .i32⟩
  | 12 => ⟨S4096x128, .f32⟩
  | 13 => ⟨S_, .i32⟩
  | 14 => ⟨S4096, .i32⟩
  | 15 => ⟨S4096, .i1⟩
  | 16 => ⟨S_, .i32⟩
  | 17 => ⟨S4096, .i32⟩
  | 18 => ⟨S4096, .i32⟩
  | 19 => ⟨S4096, .i32⟩
  | 20 => ⟨S4096x1, .i32⟩
  | 21 => ⟨S4096x128, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S_, .i32⟩
  | 30 => ⟨S4096, .i32⟩
  | 31 => ⟨S4096, .i32⟩
  | 32 => ⟨S4096x1, .i32⟩
  | 33 => ⟨S4096x1, .i32⟩
  | 34 => ⟨S4096x2, .i32⟩
  | 35 => ⟨S4096, .f32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S_, .i32⟩
  | 44 => ⟨S4096, .i32⟩
  | 45 => ⟨S4096, .i32⟩
  | 46 => ⟨S4096x1, .i32⟩
  | 47 => ⟨S4096x1, .i32⟩
  | 48 => ⟨S4096x2, .i32⟩
  | 49 => ⟨S4096, .f32⟩
  | 50 => ⟨S_, .f32⟩
  | 51 => ⟨S4096, .f32⟩
  | 52 => ⟨S4096, .f32⟩
  | 53 => ⟨S4096, .f32⟩
  | 54 => ⟨S4096x128, .f32⟩
  | 55 => ⟨S_, .f32⟩
  | 56 => ⟨S4096, .f32⟩
  | 57 => ⟨S4096, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call0_cst : Ref sig .tc := ⟨.hbm, 45, rfl⟩
abbrev main_call0_v0 : Ref sig .tc := ⟨.hbm, 46, rfl⟩
abbrev main_v23 : Ref sig .tc := ⟨.hbm, 47, rfl⟩
abbrev main_cst_1 : Ref sig .tc := ⟨.hbm, 48, rfl⟩
abbrev main_v24 : Ref sig .tc := ⟨.hbm, 49, rfl⟩
abbrev main_v25 : Ref sig .tc := ⟨.hbm, 50, rfl⟩
abbrev main_cst_2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_3 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_6 : Ref sig .tc := ⟨.hbm, 78, rfl⟩
abbrev main_v49 : Ref sig .tc := ⟨.hbm, 79, rfl⟩
abbrev main_v50 : Ref sig .tc := ⟨.hbm, 80, rfl⟩
abbrev main_c_7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_8 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call1_cst : Ref sig .tc := ⟨.hbm, 98, rfl⟩
abbrev main_call1_v0 : Ref sig .tc := ⟨.hbm, 99, rfl⟩
abbrev main_v66 : Ref sig .tc := ⟨.hbm, 100, rfl⟩
abbrev main_cst_9 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_11 : Ref sig .tc := ⟨.hbm, 110, rfl⟩
abbrev main_v74 : Ref sig .tc := ⟨.hbm, 111, rfl⟩
abbrev main_v75 : Ref sig .tc := ⟨.hbm, 112, rfl⟩
abbrev main_cst_12 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_13 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_14 : Ref sig .tc := ⟨.hbm, 132, rfl⟩
abbrev main_v93 : Ref sig .tc := ⟨.hbm, 133, rfl⟩
abbrev main_v94 : Ref sig .tc := ⟨.hbm, 134, rfl⟩
abbrev main_c_15 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_16 : Ref sig .tc := ⟨.hbm, 141, rfl⟩
abbrev main_v100 : Ref sig .tc := ⟨.hbm, 142, rfl⟩
abbrev main_v101 : Ref sig .tc := ⟨.hbm, 143, rfl⟩
abbrev main_c_17 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_c_18 : Ref sig .tc := ⟨.hbm, 150, rfl⟩
abbrev main_v107 : Ref sig .tc := ⟨.hbm, 151, rfl⟩
abbrev main_v108 : Ref sig .tc := ⟨.hbm, 152, rfl⟩
abbrev main_c_19 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_c_20 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_21 : Ref sig .tc := ⟨.hbm, 164, rfl⟩
abbrev main_v118 : Ref sig .tc := ⟨.hbm, 165, rfl⟩
abbrev main_v119 : Ref sig .tc := ⟨.hbm, 166, rfl⟩
abbrev main_c_22 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_c_23 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_24 : Ref sig .tc := ⟨.hbm, 183, rfl⟩
abbrev main_v134 : Ref sig .tc := ⟨.hbm, 184, rfl⟩
abbrev main_v135 : Ref sig .tc := ⟨.hbm, 185, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  transposes_S128x128_S128x128_1_0 : S128x128.Transposes [1, 0] S128x128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  shapeCasts_S1_S_ : S1.ShapeCasts S_
  reducesTo_S4096x128_S4096_d1 : S4096x128.ReducesTo [1] S4096
  dot_S100000x256_S256x128_S100000x128_1_0_0_1_n_n_wf : DotDims.WF S100000x256 S256x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  gather_S50000x128_S4096x1_S4096x128_1_0_n_n_0_1_1128_wf : GatherDims.WF S50000x128 S4096x1 S4096x128 [1] [0] [] [0] [] 1 ![1, 128]
  gather_S100000x128_S4096x1_S4096x128_1_0_n_n_0_1_1128_wf : GatherDims.WF S100000x128 S4096x1 S4096x128 [1] [0] [] [0] [] 1 ![1, 128]
  gather_S50000x1_S4096x2_S4096_n_01_n_n_01_1_11_wf : GatherDims.WF S50000x1 S4096x2 S4096 [] [0, 1] [] [0, 1] [] 1 ![1, 1]
  gather_S100000x1_S4096x2_S4096_n_01_n_n_01_1_11_wf : GatherDims.WF S100000x1 S4096x2 S4096 [] [0, 1] [] [0, 1] [] 1 ![1, 1]

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def gather_S100000x128_S4096x1_S4096x128_1_0_n_n_0_1_1128 : GatherDims S100000x128 S4096x1 S4096x128 where
  offsetDims := [1]
  collapsedSliceDims := [0]
  operandBatchingDims := []
  startIndicesBatchingDims := []
  startIndexMap := [0]
  indexVectorDim := 1
  sliceSizes := ![1, 128]
  wf := gather_S100000x128_S4096x1_S4096x128_1_0_n_n_0_1_1128_wf
def gather_S50000x1_S4096x2_S4096_n_01_n_n_01_1_11 : GatherDims S50000x1 S4096x2 S4096 where
  offsetDims := []
  collapsedSliceDims := [0, 1]
  operandBatchingDims := []
  startIndicesBatchingDims := []
  startIndexMap := [0, 1]
  indexVectorDim := 1
  sliceSizes := ![1, 1]
  wf := gather_S50000x1_S4096x2_S4096_n_01_n_n_01_1_11_wf
def gather_S100000x1_S4096x2_S4096_n_01_n_n_01_1_11 : GatherDims S100000x1 S4096x2 S4096 where
  offsetDims := []
  collapsedSliceDims := [0, 1]
  operandBatchingDims := []
  startIndicesBatchingDims := []
  startIndexMap := [0, 1]
  indexVectorDim := 1
  sliceSizes := ![1, 1]
  wf := gather_S100000x1_S4096x2_S4096_n_01_n_n_01_1_11_wf

class Facts : Prop extends Facts₀ where

variable [Facts]
-- ==== Proof.KRun.lean ====
/-
  The idealized kernel's run with its result named. Every weakly fair execution of the program terminates without a
  fault; at the end every unscoped buffer holds the contents the last segment boundary assigns it — the launch memory
  carried through the four stretches of host operations and the three tiled regions in order — and, in particular, the
  result buffer holds that boundary's value while each argument still holds its launch contents.
-/
import proofs.«104313_j32349693673727_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's seven segments, read at the end against the last boundary's contents: the result buffer
    at that boundary's value, every argument as launched. -/
theorem run_result : θ_run defs (onTc (τ := τ) (main (F := F))) ⟨m, fun _ => 0, ρ⟩ (fun r => ∀ c : Dev nD,
      r.2.mem ((c.tc : Thread nD τ).loc main_v81) = W7 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v81 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c),
       (h c _ (mem_uc main_arg18 (by decide))).trans (W7_main_arg18 m ρ c)⟩)

end Cert.KernelIdeal.RunValue

end
-- ==== Proof.Walk.lean ====
/-
  The buffer contents at the segment boundaries of the idealized kernel's run, walked back to the launch memory.

  Between the launch and the return the program alternates stretches of host operations with tiled regions. A host
  stretch rewrites only the buffers its operations write; a region rewrites only its windows' arrays, and of those only
  the output window's (an input window's array ends as it was entered). So a buffer that nothing on the way writes still
  holds its launch contents at every later boundary, and a buffer written once holds that value until the end.
-/
import proofs.«104313_j32349693673727_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What each host stretch writes -/

/-- The buffers the first stretch writes: the transposed projection weight and the bias as a row. -/
abbrev written0 : List (Ref sig .tc) := [main_v0, main_v1]
/-- The buffers the second stretch writes. -/
abbrev written1 : List (Ref sig .tc) :=
  [main_v3, main_v4, main_v5, main_v6, main_v7, main_c, main_v8, main_v9, main_c_0, main_v10, main_v11, main_v12, main_v13,
   main_v14, main_v15, main_v16, main_cst, main_v17, main_v18, main_v19, main_v20]
/-- The buffers the third stretch writes. -/
abbrev written2 : List (Ref sig .tc) :=
  [main_v22, main_c_1, main_v23, main_v24, main_c_2, main_v25, main_v26, main_v27, main_v28, main_v29, main_v30, main_v31,
   main_cst_3, main_v32, main_v33, main_v34, main_v35]

theorem writes0 : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

theorem writes1 : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

theorem writes2 : (hostOps2 : List (HloOp τ sig (Elt F))).Forall fun op => op.writes ⊆ (written2.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-! ## One step back across each boundary -/

theorem W1_of (c : Dev nD) (r : Ref sig .tc) (h : r ∉ written0) :
    W1 m ρ c (Proc.devRef .tc r) = m ((c : Thread nD τ).loc r) :=
  StableHlo.after_of_writes_sub hostOps0 _ writes0 h
theorem W3_of (c : Dev nD) (r : Ref sig .tc) (h : r ∉ written1) :
    W3 m ρ c (Proc.devRef .tc r) = W2 m ρ c (Proc.devRef .tc r) :=
  StableHlo.after_of_writes_sub hostOps1 _ writes1 h
theorem W5_of (c : Dev nD) (r : Ref sig .tc) (h : r ∉ written2) :
    W5 m ρ c (Proc.devRef .tc r) = W4 m ρ c (Proc.devRef .tc r) :=
  StableHlo.after_of_writes_sub hostOps2 _ writes2 h

/-! ## A buffer nothing writes, at each boundary -/

/-- A buffer that the first stretch does not write and that is no array of the first region holds its launch contents
    when the second stretch starts. -/
theorem W2_launch (c : Dev nD) (r : Ref sig .tc) (h0 : r ∉ written0) (a0 : ∀ w, Pipeline.arrRef spec0 w ≠ r) :
    W2 m ρ c (Proc.devRef .tc r) = m ((c : Thread nD τ).loc r) :=
  (W2_of_ne m ρ c r a0).trans (W1_of m ρ c r h0)

/-- … and when the third stretch starts. -/
theorem W4_launch (c : Dev nD) (r : Ref sig .tc) (h0 : r ∉ written0) (a0 : ∀ w, Pipeline.arrRef spec0 w ≠ r)
    (h1 : r ∉ written1) (a1 : ∀ w, Pipeline.arrRef spec1 w ≠ r) :
    W4 m ρ c (Proc.devRef .tc r) = m ((c : Thread nD τ).loc r) :=
  (W4_of_ne m ρ c r a1).trans ((W3_of m ρ c r h1).trans (W2_launch m ρ c r h0 a0))

/-- … and when the last stretch starts. -/
theorem W6_launch (c : Dev nD) (r : Ref sig .tc) (h0 : r ∉ written0) (a0 : ∀ w, Pipeline.arrRef spec0 w ≠ r)
    (h1 : r ∉ written1) (a1 : ∀ w, Pipeline.arrRef spec1 w ≠ r) (h2 : r ∉ written2) (a2 : ∀ w, Pipeline.arrRef spec2 w ≠ r) :
    W6 m ρ c (Proc.devRef .tc r) = m ((c : Thread nD τ).loc r) :=
  (W6_of_ne m ρ c r a2).trans ((W5_of m ρ c r h2).trans (W4_launch m ρ c r h0 a0 h1 a1))

/-! ## The first region's output survives to the end -/

/-- The projection's output array, written by the first region, is still there when the second stretch starts … -/
theorem W2_proj (c : Dev nD) : W2 m ρ c (Proc.devRef .tc main_v2) = (dat0 (V1 m ρ) c).arrAt 3 cfg0.N :=
  W2_arr m ρ c 3
/-- … when the third stretch starts … -/
theorem W4_proj (c : Dev nD) : W4 m ρ c (Proc.devRef .tc main_v2) = (dat0 (V1 m ρ) c).arrAt 3 cfg0.N :=
  (W4_of_ne m ρ c main_v2 (by decide)).trans ((W3_of m ρ c main_v2 (by decide)).trans (W2_proj m ρ c))
/-- … and when the last stretch starts. -/
theorem W6_proj (c : Dev nD) : W6 m ρ c (Proc.devRef .tc main_v2) = (dat0 (V1 m ρ) c).arrAt 3 cfg0.N :=
  (W6_of_ne m ρ c main_v2 (by decide)).trans ((W5_of m ρ c main_v2 (by decide)).trans (W4_proj m ρ c))

/-- The two layers' output arrays, as the regions leave them. -/
theorem W4_layer (c : Dev nD) : W4 m ρ c (Proc.devRef .tc main_v21) = (dat1 (V3 m ρ) c).arrAt 5 cfg1.N :=
  W4_arr m ρ c 5
theorem W6_layer (c : Dev nD) : W6 m ρ c (Proc.devRef .tc main_v36) = (dat2 (V5 m ρ) c).arrAt 5 cfg2.N :=
  W6_arr m ρ c 5

/-! ## The gain and shift rows cross the second region unchanged

They are arrays of input windows of both layer regions: the second region finds them as the first one did. -/

theorem W4_gain (c : Dev nD) : W4 m ρ c (Proc.devRef .tc main_v5) = V3 m ρ c main_v5 :=
  (W4_arr m ρ c 3).trans (((dat1 (V3 m ρ) c).arrAt_in 3 rfl _).trans (A_eq1 (V3 m ρ) c 3))
theorem W4_shift (c : Dev nD) : W4 m ρ c (Proc.devRef .tc main_v6) = V3 m ρ c main_v6 :=
  (W4_arr m ρ c 4).trans (((dat1 (V3 m ρ) c).arrAt_in 4 rfl _).trans (A_eq1 (V3 m ρ) c 4))
theorem V5_gain (c : Dev nD) : V5 m ρ c main_v5 = V3 m ρ c main_v5 :=
  (W5_of m ρ c main_v5 (by decide)).trans (W4_gain m ρ c)
theorem V5_shift (c : Dev nD) : V5 m ρ c main_v6 = V3 m ρ c main_v6 :=
  (W5_of m ρ c main_v6 (by decide)).trans (W4_shift m ρ c)
/-- The second layer's transposed weight, written by the second stretch, crosses the second region and the third stretch. -/
theorem V5_weight (c : Dev nD) : V5 m ρ c main_v4 = V3 m ρ c main_v4 :=
  (W5_of m ρ c main_v4 (by decide)).trans (W4_of_ne m ρ c main_v4 (by decide))

end Cert.KernelIdeal.RunValue

end
-- ==== Proof.Spec.lean ====
/-
  What the two programs compute, as functions of whole arrays read index by index on the extended reals.

  * `dense x wt b`: row `r` of the result is row `r` of `x` times the matrix `wt`, plus the bias row `b`.
  * `layer x wt b g β`: the dense map, rectified at zero, then normalized along each row: with `h` the rectified
    row, `μ` its mean (the row sum divided by 128) and `σ²` the mean of the squared deviations, the entry is
    `(h − μ) · rsqrt (σ² + ε) · g + β`.

  Every entry of a result row depends on the same row of `x` only (`dense_rows`, `layer_rows`): a block of rows of the
  result is the same function of the same block of rows of `x`, which is how a row-tiled evaluation meets the whole one.
  The float literals stay as their bit patterns: both programs spell the same words.
-/
import Idealize.ShloMosaic.PureOps.Ideal
import Idealize.ShloMosaic.Lib.ValueIdx

noncomputable section

open Idealize.ShloMosaic Idealize.ShloMosaic.ValueIdx

namespace Cert.Spec

/-- The rows of `x` times `wt`, plus the bias. -/
def dense {N K M : ℕ} (x : (⟨2, ![N, K]⟩ : Shape).Idx → EReal) (wt : (⟨2, ![K, M]⟩ : Shape).Idx → EReal)
    (b : Fin M → EReal) : (⟨2, ![N, M]⟩ : Shape).Idx → EReal :=
  fun i => (∑ k : Fin K, x (ix2 (i 0) k) * wt (ix2 k (i 1))) + b (i 1)

/-- Rectified at zero. -/
def relu {N M : ℕ} (h : (⟨2, ![N, M]⟩ : Shape).Idx → EReal) : (⟨2, ![N, M]⟩ : Shape).Idx → EReal :=
  fun i => max (h i) (Ideal.ofBits .f32 0x00000000#32)

/-- The mean of row `r`: its sum divided by the literal 128. -/
def rowMean {N M : ℕ} (h : (⟨2, ![N, M]⟩ : Shape).Idx → EReal) (r : Fin N) : EReal :=
  Ideal.div (∑ j : Fin M, h (ix2 r j)) (Ideal.ofBits .f32 0x43000000#32)

/-- The deviation of an entry from its row's mean. -/
def centred {N M : ℕ} (h : (⟨2, ![N, M]⟩ : Shape).Idx → EReal) : (⟨2, ![N, M]⟩ : Shape).Idx → EReal :=
  fun i => h i - rowMean h (i 0)

/-- The mean of the squared deviations of row `r`. -/
def rowVar {N M : ℕ} (h : (⟨2, ![N, M]⟩ : Shape).Idx → EReal) (r : Fin N) : EReal :=
  Ideal.div (∑ j : Fin M, centred h (ix2 r j) * centred h (ix2 r j)) (Ideal.ofBits .f32 0x43000000#32)

/-- Each row normalized, scaled by `g` and shifted by `β`. -/
def layerNorm {N M : ℕ} (h : (⟨2, ![N, M]⟩ : Shape).Idx → EReal) (g β : Fin M → EReal) :
    (⟨2, ![N, M]⟩ : Shape).Idx → EReal :=
  fun i => centred h i * Ideal.rsqrt (rowVar h (i 0) + Ideal.ofBits .f32 0x3727C5AC#32) * g (i 1) + β (i 1)

/-- One layer: dense, rectified, normalized. -/
def layer {N K M : ℕ} (x : (⟨2, ![N, K]⟩ : Shape).Idx → EReal) (wt : (⟨2, ![K, M]⟩ : Shape).Idx → EReal)
    (b g β : Fin M → EReal) : (⟨2, ![N, M]⟩ : Shape).Idx → EReal :=
  layerNorm (relu (dense x wt b)) g β

/-! ## Row locality -/

/-- An entry of `dense` depends on its own row of `x` only. -/
theorem dense_rows {N N' K M : ℕ} (x : (⟨2, ![N, K]⟩ : Shape).Idx → EReal) (x' : (⟨2, ![N', K]⟩ : Shape).Idx → EReal)
    (wt : (⟨2, ![K, M]⟩ : Shape).Idx → EReal) (b : Fin M → EReal) (r : Fin N) (r' : Fin N')
    (hx : ∀ k : Fin K, x (ix2 r k) = x' (ix2 r' k)) (q : Fin M) :
    dense x wt b (ix2 r q) = dense x' wt b (ix2 r' q) := by
  unfold dense
  exact congrArg (· + b q) (Finset.sum_congr rfl fun k _ => congrArg (· * wt (ix2 k q)) (hx k))

/-- Rows that agree have the same mean. -/
theorem rowMean_rows {N N' M : ℕ} (h : (⟨2, ![N, M]⟩ : Shape).Idx → EReal) (h' : (⟨2, ![N', M]⟩ : Shape).Idx → EReal)
    (r : Fin N) (r' : Fin N') (hh : ∀ j : Fin M, h (ix2 r j) = h' (ix2 r' j)) : rowMean h r = rowMean h' r' := by
  unfold rowMean
  exact congrArg (Ideal.div · _) (Finset.sum_congr rfl fun j _ => hh j)

/-- Rows that agree have the same deviations. -/
theorem centred_rows {N N' M : ℕ} (h : (⟨2, ![N, M]⟩ : Shape).Idx → EReal) (h' : (⟨2, ![N', M]⟩ : Shape).Idx → EReal)
    (r : Fin N) (r' : Fin N') (hh : ∀ j : Fin M, h (ix2 r j) = h' (ix2 r' j)) (q : Fin M) :
    centred h (ix2 r q) = centred h' (ix2 r' q) := by
  show h (ix2 r q) - rowMean h r = h' (ix2 r' q) - rowMean h' r'
  rw [hh q, rowMean_rows h h' r r' hh]

/-- Rows that agree have the same variance. -/
theorem rowVar_rows {N N' M : ℕ} (h : (⟨2, ![N, M]⟩ : Shape).Idx → EReal) (h' : (⟨2, ![N', M]⟩ : Shape).Idx → EReal)
    (r : Fin N) (r' : Fin N') (hh : ∀ j : Fin M, h (ix2 r j) = h' (ix2 r' j)) : rowVar h r = rowVar h' r' := by
  unfold rowVar
  exact congrArg (Ideal.div · _) (Finset.sum_congr rfl fun j _ => by rw [centred_rows h h' r r' hh j])

/-- Rows that agree normalize to the same row. -/
theorem layerNorm_rows {N N' M : ℕ} (h : (⟨2, ![N, M]⟩ : Shape).Idx → EReal) (h' : (⟨2, ![N', M]⟩ : Shape).Idx → EReal)
    (g β : Fin M → EReal) (r : Fin N) (r' : Fin N') (hh : ∀ j : Fin M, h (ix2 r j) = h' (ix2 r' j)) (q : Fin M) :
    layerNorm h g β (ix2 r q) = layerNorm h' g β (ix2 r' q) := by
  show centred h (ix2 r q) * Ideal.rsqrt (rowVar h r + _) * g q + β q
      = centred h' (ix2 r' q) * Ideal.rsqrt (rowVar h' r' + _) * g q + β q
  rw [centred_rows h h' r r' hh q, rowVar_rows h h' r r' hh]

/-- An entry of a layer depends on its own row of `x` only: row `r` of the layer of `x` is row `r'` of the layer of
    `x'` whenever row `r` of `x` is row `r'` of `x'`. -/
theorem layer_rows {N N' K M : ℕ} (x : (⟨2, ![N, K]⟩ : Shape).Idx → EReal) (x' : (⟨2, ![N', K]⟩ : Shape).Idx → EReal)
    (wt : (⟨2, ![K, M]⟩ : Shape).Idx → EReal) (b g β : Fin M → EReal) (r : Fin N) (r' : Fin N')
    (hx : ∀ k : Fin K, x (ix2 r k) = x' (ix2 r' k)) (q : Fin M) :
    layer x wt b g β (ix2 r q) = layer x' wt b g β (ix2 r' q) := by
  unfold layer
  refine layerNorm_rows _ _ g β r r' (fun j => ?_) q
  show max (dense x wt b (ix2 r j)) _ = max (dense x' wt b (ix2 r' j)) _
  rw [dense_rows x x' wt b r r' hx j]

end Cert.Spec

end
-- ==== Proof.Region0.lean ====
/-
  The projection region in closed form.

  The region runs a row-tiled dense map: at grid point `t` it stages rows `5000 t … 5000 t + 4999` of the input, the
  whole weight matrix and the whole bias row, and writes the same rows of the result. Row `p` of a staged block is row
  `5000 t + p` of the input, an entry of the dense map depends on its own input row only, and the twenty row blocks
  tile the result: so the result array ends holding the dense map of the whole input.
-/
import proofs.«104313_j32349693673727_1_alg».proof.Proof.Spec
import proofs.«104313_j32349693673727_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an entry -/

/-- The product's dimension numbers: rows by the contracted axis, times the contracted axis by columns. -/
abbrev dotD := dot_S5000x256_S256x128_S5000x128_1_0_0_1_n_n

/-- The left operand's index of a product entry keeps the entry's row, -/
theorem lhs_row (i : S5000x128.Idx) (c : dotD.contr.Idx) : (dotD.lhsIdx i c 0).val = (i 0).val := by
  unfold DotDims.lhsIdx
  rw [dif_neg (show ¬(0 : Fin S5000x256.rank) ∈ dotD.lhsBatch by decide),
    dif_pos (show (0 : Fin S5000x256.rank) ∈ dotD.lhsNonContracting by decide)]
  rfl
/-- and runs along the contracted axis; -/
theorem lhs_col (i : S5000x128.Idx) (c : dotD.contr.Idx) : (dotD.lhsIdx i c 1).val = (c ⟨0, by decide⟩).val :=
  dotD.lhsIdx_val_of_single rfl i c
/-- the right operand's runs along the contracted axis -/
theorem rhs_row (i : S5000x128.Idx) (c : dotD.contr.Idx) : (dotD.rhsIdx i c 0).val = (c ⟨0, by decide⟩).val :=
  dotD.rhsIdx_val_of_single rfl i c
/-- and keeps the entry's column. -/
theorem rhs_col (i : S5000x128.Idx) (c : dotD.contr.Idx) : (dotD.rhsIdx i c 1).val = (i 1).val := by
  unfold DotDims.rhsIdx
  rw [dif_neg (show ¬(1 : Fin S256x128.rank) ∈ dotD.rhsBatch by decide),
    dif_pos (show (1 : Fin S256x128.rank) ∈ dotD.rhsNonContracting by decide)]
  rfl

/-- The product of the staged rows and the weight matrix at an entry: the sum over the one contracted axis. -/
theorem matmul_entry (a : FVec Ideal S5000x256 .bf16) (b : FVec Ideal S256x128 .bf16) (p : Fin 5000) (q : Fin 128) :
    FloatOps.matmul dotD none a b (constant S5000x128 .f32 0x00000000#32) (ix2 p q)
      = ∑ k : Fin 256, a (ix2 p k) * b (ix2 k q) := by
  rw [Ideal.matmul_constant_zero_apply, ← Equiv.sum_comp (contrEquiv1 dotD 256 rfl rfl).symm]
  refine Finset.sum_congr rfl fun k _ => ?_
  have hk := contrEquiv1_symm_val dotD 256 rfl rfl k
  have el : dotD.lhsIdx (ix2 p q) ((contrEquiv1 dotD 256 rfl rfl).symm k) = ix2 p k := funext fun ax => Fin.ext (by
    match ax with
    | ⟨0, _⟩ => exact lhs_row _ _
    | ⟨1, _⟩ => exact (lhs_col _ _).trans hk)
  have er : dotD.rhsIdx (ix2 p q) ((contrEquiv1 dotD 256 rfl rfl).symm k) = ix2 k q := funext fun ax => Fin.ext (by
    match ax with
    | ⟨0, _⟩ => exact (rhs_row _ _).trans hk
    | ⟨1, _⟩ => exact rhs_col _ _)
  rw [el, er]

/-- The bias row broadcast down the rows, at an entry. -/
theorem bias_entry (x2 : Vec Ideal S1x128 .f32) (p : Fin 5000) (q : Fin 128) :
    broadcastTo S5000x128 x2 broadcasts_S1x128_S5000x128 (ix2 p q) = x2 (ix2 (0 : Fin 1) q) := by
  refine broadcastTo_apply x2 broadcasts_S1x128_S5000x128 (ix2 p q) (ix2 (0 : Fin 1) q) fun ax => ?_
  match ax with
  | ⟨0, _⟩ => rfl
  | ⟨1, _⟩ => rfl

/-- The body's payload at an entry is the dense map of its three staged blocks. -/
theorem proj_payload (x0 : Vec Ideal S5000x256 .f32) (x1 : Vec Ideal S256x128 .f32) (x2 : Vec Ideal S1x128 .f32)
    (p : Fin 5000) (q : Fin 128) :
    k0_pay1 (F := Ideal) x0 x1 x2 (ix2 p q)
      = Cert.Spec.dense x0 x1 (fun j => x2 (ix2 (0 : Fin 1) j)) (ix2 p q) := by
  have e1 := matmul_entry (truncf .bf16 x0 bitsLt_bf16_f32)
    (truncf .bf16 (shapeCast S256x128 x1 shapeCasts_S256x128_S256x128) bitsLt_bf16_f32) p q
  have e2 := bias_entry (shapeCast S1x128 x2 shapeCasts_S1x128_S1x128) p q
  refine (congrArg₂ (· + ·) e1 e2).trans ?_
  rw [shapeCast_self, shapeCast_self]
  rfl

/-! ## The staged blocks as rows of the arrays -/

variable (V : (c : Dev nD) → (b : Ref sig .tc) → Buf (Elt Ideal) ((c : Thread nD τ).loc b))

theorem zero_off : (![0, 0] : Fin 2 → Nat) = fun _ => 0 := funext fun a => by fin_cases a <;> rfl

/-- The printed index maps, decided over the grid: at point `t` the input's and the result's block index is `(t, 0)`,
    the weight matrix's and the bias row's is `(0, 0)`. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the input's block at point `t` is row `5000 t + p` of the input. -/
theorem input_block (c : Dev nD) (t : Fin cfg0.N) (p : Fin 5000) (k : Fin 256) (r : Fin 100000)
    (hr : r.val = 5000 * t.val + p.val) :
    (iblk0 (F := Ideal) V c 0 t : Vec Ideal S5000x256 .f32) (ix2 p k)
      = (V c main_arg0 : S100000x256.Idx → EReal) (ix2 r k) := by
  obtain ⟨e0, e1, -⟩ := block_index t
  show (V c main_arg0 : S100000x256.Idx → EReal) (((cfg0.win 0).blk t).view.emb (ix2 p k)) = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The weight matrix's block at every point is the whole matrix. -/
theorem weight_block (c : Dev nD) (t : Fin cfg0.N) (k : Fin 256) (q : Fin 128) :
    (iblk0 (F := Ideal) V c 1 t : Vec Ideal S256x128 .f32) (ix2 k q)
      = (V c main_v0 : S256x128.Idx → EReal) (ix2 k q) := by
  obtain ⟨-, -, e2, e3, -⟩ := block_index t
  show (V c main_v0 : S256x128.Idx → EReal) (((cfg0.win 1).blk t).view.emb (ix2 k q)) = _
  refine congrArg _ (funext fun a => Fin.ext ?_)
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- The bias row's block at every point is the whole row. -/
theorem bias_block (c : Dev nD) (t : Fin cfg0.N) (u : Fin 1) (q : Fin 128) :
    (iblk0 (F := Ideal) V c 2 t : Vec Ideal S1x128 .f32) (ix2 u q)
      = (V c main_v1 : S1x128.Idx → EReal) (ix2 u q) := by
  obtain ⟨-, -, -, -, e4, e5, -⟩ := block_index t
  show (V c main_v1 : S1x128.Idx → EReal) (((cfg0.win 2).blk t).view.emb (ix2 u q)) = _
  refine congrArg _ (funext fun a => Fin.ext ?_)
  match a with
  | ⟨0, _⟩ => show win0_2.index t (0 : Fin 2) * 1 + 1 * u.val = u.val; rw [e4]; omega
  | ⟨1, _⟩ => show win0_2.index t (1 : Fin 2) * 128 + 1 * q.val = q.val; rw [e5]; omega

/-- Entry `(p, q)` of the result's block at point `t` is entry `(5000 t + p, q)` of the result. -/
theorem result_block (t : Fin cfg0.N) (p : Fin 5000) (q : Fin 128) (r : Fin 100000) (hr : r.val = 5000 * t.val + p.val) :
    ((cfg0.win 3).blk t).view.emb (ix2 p q) = (ix2 r q : S100000x128.Idx) := by
  obtain ⟨-, -, -, -, -, -, e6, e7⟩ := block_index t
  refine funext fun a => Fin.ext ?_
  match a with
  | ⟨0, _⟩ => show win0_3.index t (0 : Fin 2) * 5000 + 1 * p.val = r.val; rw [e6, hr]; omega
  | ⟨1, _⟩ => show win0_3.index t (1 : Fin 2) * 128 + 1 * q.val = q.val; rw [e7]; omega

/-! ## What a point writes back -/

/-- The whole result: the dense map of the input, the weight matrix and the bias row as the region finds them. -/
abbrev projected (c : Dev nD) : S100000x128.Idx → EReal :=
  Cert.Spec.dense (V c main_arg0 : S100000x256.Idx → EReal) (V c main_v0 : S256x128.Idx → EReal)
    (fun j => (V c main_v1 : S1x128.Idx → EReal) (ix2 (0 : Fin 1) j))

/-- An entry of the dense map is the same function of its row of the input, its column of the weight matrix and its
    entry of the bias row, whichever arrays they are read from. -/
theorem dense_entry {N N' K M : ℕ} (x : (⟨2, ![N, K]⟩ : Shape).Idx → EReal) (x' : (⟨2, ![N', K]⟩ : Shape).Idx → EReal)
    (wt wt' : (⟨2, ![K, M]⟩ : Shape).Idx → EReal) (b b' : Fin M → EReal) (r : Fin N) (r' : Fin N') (q : Fin M)
    (hx : ∀ k : Fin K, x (ix2 r k) = x' (ix2 r' k)) (hw : ∀ k : Fin K, wt (ix2 k q) = wt' (ix2 k q)) (hb : b q = b' q) :
    Cert.Spec.dense x wt b (ix2 r q) = Cert.Spec.dense x' wt' b' (ix2 r' q) := by
  show (∑ k : Fin K, x (ix2 r k) * wt (ix2 k q)) + b q = (∑ k : Fin K, x' (ix2 r' k) * wt' (ix2 k q)) + b' q
  rw [hb]
  exact congrArg (· + b' q) (Finset.sum_congr rfl fun k _ => by rw [hx k, hw k])

/-- The body's result at point `t`, entry by entry, is the same rows of the whole result. -/
theorem block_entry (c : Dev nD) (t : Fin cfg0.N) (p : Fin 5000) (q : Fin 128) :
    k0_pay1 (F := Ideal) (iblk0 V c 0 t) (iblk0 V c 1 t) (iblk0 V c 2 t) (ix2 p q)
      = projected V c (((cfg0.win 3).blk t).view.emb (ix2 p q)) := by
  have ht : t.val < 20 := t.isLt
  have hlt : 5000 * t.val + p.val < 100000 := by have := p.isLt; omega
  rw [result_block t p q ⟨5000 * t.val + p.val, hlt⟩ rfl]
  refine (proj_payload _ _ _ p q).trans ?_
  exact dense_entry _ _ _ _ _ _ p _ q (fun k => input_block V c t p k _ rfl) (fun k => weight_block V c t k q)
    (bias_block V c t 0 q)

/-- WHAT POINT `t` WRITES BACK is block `t` of the whole result. -/
theorem flushed_eq (c : Dev nD) (t : Fin cfg0.N) :
    (dat0 (F := Ideal) V c).flushed 3 t = ((cfg0.win 3).blk t).view.read (Elt Ideal) (projected V c) := by
  show (cfg0.win 3).cut (grid0.coords t) ((dat0 V c).after 3 t) = _
  rw [after0_3]
  unfold out0_3
  rw [View.canon_unit_zero zero_off]
  simp only [View.ld_unit_zero (S := S5000x256) zero_off, View.ld_unit_zero (S := S256x128) zero_off,
    View.ld_unit_zero (S := S1x128) zero_off]
  funext j
  obtain ⟨p, q, rfl⟩ : ∃ (p : Fin 5000) (q : Fin 128), j = ix2 p q := ⟨j 0, j 1, eq_ix2 j⟩
  exact block_entry V c t p q

/-! ## The blocks tile the result -/

/-- An index of the result is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v2).slice (win0_3.rect t)).set ↔ _
  rw [View.set_slice_whole, Rect.mem_set_unit]
  exact Iff.rfl

/-- Every index of the result lies in the block of the point its row falls in. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, e6, e7⟩ := block_index ⟨(i 0).val / 5000, hlt⟩
  refine ⟨⟨(i 0).val / 5000, hlt⟩, flush0_3 _, (mem_block _ i).mpr fun a => ?_⟩
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e7]; omega

/-! ## The region's result -/

/-- THE RESULT ARRAY when the region ends: the dense map of the whole input. -/
theorem proj_array (c : Dev nD) :
    (dat0 (F := Ideal) V c).arrAt 3 cfg0.N
      = Cert.Spec.dense (V c main_arg0 : S100000x256.Idx → EReal) (V c main_v0 : S256x128.Idx → EReal)
          (fun j => (V c main_v1 : S1x128.Idx → EReal) (ix2 (0 : Fin 1) j)) :=
  (dat0 V c).arrAt_eq_of_cover 3 (projected V c) (fun t _ => flushed_eq V c t) cover

end Cert.KernelIdeal.RegionValue

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.LayerPayload.lean ====
/-
  The fused linear + rectifier + row normalization body, read at an index: the value the body stores at row `p`, column `q`
  of its block is the layer of `Spec` of the loaded blocks at that entry.

  The body is one pure term of the five loaded blocks. Its stages are named (`lin`, `act`, `colMean`, `dev`), the body
  is shown to be the composite of the named stages, and each stage is read at an entry: the matrix product as the sum over
  the contracted coordinate, the lane sums as sums over a row, the keep-dimension casts and broadcasts as reads of the
  row's one value.
-/
import proofs.«104313_j32349693673727_1_alg».proof.Proof.Gen.KernelIdeal.Skeleton
import proofs.«104313_j32349693673727_1_alg».proof.Proof.Spec
import proofs.«104313_j32349693673727_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.ValueIdx

namespace Cert.KernelIdeal.RegionValue

open Cert.KernelIdeal Cert.KernelIdeal.Gen

/-- The product of a row block with the weight, read at an entry: the sum over the contracted coordinate. -/
theorem matmul_at (a : FVec Ideal S5000x128 .bf16) (w : FVec Ideal S128x128 .bf16) (p : Fin 5000) (q : Fin 128) :
    matmul (F := Ideal) dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun c => Fin.ext (by
      match c with
      | ⟨0, _⟩ =>
        show (dot_S5000x128_S128x128_S5000x128_1_0_0_1_n_n.lhsIdx (ix2 p q) _ 0).val = p.val
        unfold DotDims.lhsIdx
        rw [dif_neg (show ¬(0 : Fin S5000x128.rank) ∈ dot_S5000x128_S128x128_S5000x128_1_0_0_1_n_n.lhsBatch by decide),
          dif_pos (show (0 : Fin S5000x128.rank) ∈ dot_S5000x128_S128x128_S5000x128_1_0_0_1_n_n.lhsNonContracting by decide)]
        rfl
      | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun c => Fin.ext (by
      match c with
      | ⟨0, _⟩ => exact (dot_S5000x128_S128x128_S5000x128_1_0_0_1_n_n.rhsIdx_val_of_single rfl (ix2 p q) _).trans hk
      | ⟨1, _⟩ =>
        show (dot_S5000x128_S128x128_S5000x128_1_0_0_1_n_n.rhsIdx (ix2 p q) _ 1).val = q.val
        unfold DotDims.rhsIdx
        rw [dif_neg (show ¬(1 : Fin S128x128.rank) ∈ dot_S5000x128_S128x128_S5000x128_1_0_0_1_n_n.rhsBatch by decide),
          dif_pos (show (1 : Fin S128x128.rank) ∈ dot_S5000x128_S128x128_S5000x128_1_0_0_1_n_n.rhsNonContracting by decide)]
        rfl)
  rw [el, er]

/-- A `[1, 128]` row broadcast down the rows reads, at `(p, q)`, the row's entry `q`. -/
theorem row_bcast_at (v : Vec Ideal S1x128 .f32) (p : Fin 5000) (q : Fin 128) :
    broadcastTo S5000x128 (shapeCast S1x128 v shapeCasts_S1x128_S1x128) broadcasts_S1x128_S5000x128 (ix2 p q)
      = v (ix2 (0 : Fin 1) q) := by
  rw [shapeCast_self]
  refine broadcastTo_apply v broadcasts_S1x128_S5000x128 (ix2 p q) (ix2 (0 : Fin 1) q) fun ax => ?_
  match ax with
  | ⟨0, _⟩ => rfl
  | ⟨1, _⟩ => rfl

/-- The linear stage of the body: the row block times the weight, plus the bias row. -/
def lin (x0 : Vec Ideal S5000x128 .f32) (x3 : Vec Ideal S128x128 .f32) (x7 : Vec Ideal S1x128 .f32) : FVec Ideal S5000x128 .f32 :=
  addf
    (matmul dot_S5000x128_S128x128_S5000x128_1_0_0_1_n_n none
      (truncf .bf16 (shapeCast S5000x128 x0 shapeCasts_S5000x128_S5000x128) bitsLt_bf16_f32)
      (truncf .bf16 (shapeCast S128x128 x3 shapeCasts_S128x128_S128x128) bitsLt_bf16_f32)
      (constant S5000x128 .f32 0x00000000#32))
    (broadcastTo S5000x128 (shapeCast S1x128 x7 shapeCasts_S1x128_S1x128) broadcasts_S1x128_S5000x128)

/-- The rectified linear stage. -/
def act (x0 : Vec Ideal S5000x128 .f32) (x3 : Vec Ideal S128x128 .f32) (x7 : Vec Ideal S1x128 .f32) : FVec Ideal S5000x128 .f32 :=
  maximumf (lin x0 x3 x7) (broadcast S5000x128 (Scalar.ofBits .f32 0x00000000#32))

/-- The row sums of a block divided by the literal 128, kept as a column. -/
def colMean (z : FVec Ideal S5000x128 .f32) : FVec Ideal S5000x1 .f32 :=
  divf (shapeCast S5000x1 (multiReduction .add [1] S5000 z 0x00000000#32 reduces_S5000x128_S5000 (.inl rfl) rfl) shapeCasts_S5000_S5000x1)
    (broadcast S5000x1 (Scalar.ofBits .f32 0x43000000#32))

/-- The deviations of a block from its row means. -/
def dev (h : FVec Ideal S5000x128 .f32) : FVec Ideal S5000x128 .f32 :=
  subf h (broadcastTo S5000x128 (colMean h) broadcasts_S5000x1_S5000x128)

/-- The body is the normalization of the rectified linear stage, scaled and shifted: the same term, its stages named. -/
theorem pay_stages (x0 : Vec Ideal S5000x128 .f32) (x3 : Vec Ideal S128x128 .f32) (x7 x29 x33 : Vec Ideal S1x128 .f32) :
    k1_pay1 (F := Ideal) x0 x3 x7 x29 x33
      = addf
          (mulf
            (mulf (dev (act x0 x3 x7))
              (broadcastTo S5000x128
                (rsqrt (addf (colMean (mulf (dev (act x0 x3 x7)) (dev (act x0 x3 x7))))
                  (broadcast S5000x1 (Scalar.ofBits .f32 0x3727C5AC#32))))
                broadcasts_S5000x1_S5000x128))
            (broadcastTo S5000x128 (shapeCast S1x128 x29 shapeCasts_S1x128_S1x128) broadcasts_S1x128_S5000x128))
          (broadcastTo S5000x128 (shapeCast S1x128 x33 shapeCasts_S1x128_S1x128) broadcasts_S1x128_S5000x128) := rfl

/-- The linear stage at an entry is the dense map of the specification. -/
theorem lin_at (x0 : Vec Ideal S5000x128 .f32) (x3 : Vec Ideal S128x128 .f32) (x7 : Vec Ideal S1x128 .f32)
    (p : Fin 5000) (q : Fin 128) :
    lin x0 x3 x7 (ix2 p q) = Cert.Spec.dense x0 x3 (fun j => x7 (ix2 (0 : Fin 1) j)) (ix2 p q) := by
  show matmul (F := Ideal) dot_S5000x128_S128x128_S5000x128_1_0_0_1_n_n none
        (truncf .bf16 (shapeCast S5000x128 x0 shapeCasts_S5000x128_S5000x128) bitsLt_bf16_f32)
        (truncf .bf16 (shapeCast S128x128 x3 shapeCasts_S128x128_S128x128) bitsLt_bf16_f32)
        (constant (F := Ideal) S5000x128 .f32 0x00000000#32) (ix2 p q)
      + broadcastTo S5000x128 (shapeCast S1x128 x7 shapeCasts_S1x128_S1x128) broadcasts_S1x128_S5000x128 (ix2 p q)
      = (∑ k : Fin 128, x0 (ix2 p k) * x3 (ix2 k q)) + x7 (ix2 (0 : Fin 1) q)
  rw [matmul_at, row_bcast_at, shapeCast_self, shapeCast_self]
  rfl

/-- The rectified stage at an entry. -/
theorem act_at (x0 : Vec Ideal S5000x128 .f32) (x3 : Vec Ideal S128x128 .f32) (x7 : Vec Ideal S1x128 .f32)
    (p : Fin 5000) (q : Fin 128) :
    act x0 x3 x7 (ix2 p q) = Cert.Spec.relu (Cert.Spec.dense x0 x3 (fun j => x7 (ix2 (0 : Fin 1) j))) (ix2 p q) := by
  show max (lin x0 x3 x7 (ix2 p q)) (Ideal.ofBits .f32 0x00000000#32)
      = max (Cert.Spec.dense x0 x3 (fun j => x7 (ix2 (0 : Fin 1) j)) (ix2 p q)) (Ideal.ofBits .f32 0x00000000#32)
  rw [lin_at]

/-- The column of row means at `(p, u)`: the sum of row `p` divided by the literal 128. -/
theorem colMean_at (z : FVec Ideal S5000x128 .f32) (p : Fin 5000) (u : Fin 1) :
    colMean z (ix2 p u) = Ideal.div (∑ j : Fin 128, z (ix2 p j)) (Ideal.ofBits .f32 0x43000000#32) := by
  show Ideal.div (shapeCast S5000x1 (multiReduction .add [1] S5000 z 0x00000000#32 reduces_S5000x128_S5000 (.inl rfl) rfl)
        shapeCasts_S5000_S5000x1 (ix2 p u)) (Ideal.ofBits .f32 0x43000000#32) = _
  rw [Cert.Lib.shapeCast_a_a1_apply, Cert.Lib.multiReduction_add_row]

/-- A block whose entries are those of `h'` has the row means of `h'`. -/
theorem colMean_spec (h : FVec Ideal S5000x128 .f32) (h' : S5000x128.Idx → EReal)
    (hh : ∀ (p : Fin 5000) (j : Fin 128), h (ix2 p j) = h' (ix2 p j)) (p : Fin 5000) (u : Fin 1) :
    colMean h (ix2 p u) = Cert.Spec.rowMean h' p := by
  rw [colMean_at]
  unfold Cert.Spec.rowMean
  exact congrArg (Ideal.div · _) (Finset.sum_congr rfl fun j _ => hh p j)

/-- … and the deviations of `h'`. -/
theorem dev_spec (h : FVec Ideal S5000x128 .f32) (h' : S5000x128.Idx → EReal)
    (hh : ∀ (p : Fin 5000) (j : Fin 128), h (ix2 p j) = h' (ix2 p j)) (p : Fin 5000) (q : Fin 128) :
    dev h (ix2 p q) = Cert.Spec.centred h' (ix2 p q) := by
  show h (ix2 p q) - broadcastTo S5000x128 (colMean h) broadcasts_S5000x1_S5000x128 (ix2 p q)
      = h' (ix2 p q) - Cert.Spec.rowMean h' p
  rw [Cert.Lib.broadcastTo_a1_ab_apply, colMean_spec h h' hh, hh]

/-- … and the row variances of `h'`. -/
theorem var_spec (h : FVec Ideal S5000x128 .f32) (h' : S5000x128.Idx → EReal)
    (hh : ∀ (p : Fin 5000) (j : Fin 128), h (ix2 p j) = h' (ix2 p j)) (p : Fin 5000) (u : Fin 1) :
    colMean (mulf (dev h) (dev h)) (ix2 p u) = Cert.Spec.rowVar h' p := by
  rw [colMean_at]
  unfold Cert.Spec.rowVar
  refine congrArg (Ideal.div · _) (Finset.sum_congr rfl fun j _ => ?_)
  show dev h (ix2 p j) * dev h (ix2 p j) = _
  rw [dev_spec h h' hh]

/-- The body's stored value at row `p`, column `q` is the layer of the loaded blocks at that entry: the deviation of the
    rectified linear stage from its row mean, times the reciprocal root of the row variance plus ε, scaled and shifted. -/
theorem layer_payload (x0 : Vec Ideal S5000x128 .f32) (x3 : Vec Ideal S128x128 .f32) (x7 x29 x33 : Vec Ideal S1x128 .f32)
    (p : Fin 5000) (q : Fin 128) :
    k1_pay1 (F := Ideal) x0 x3 x7 x29 x33 (ix2 p q)
      = Cert.Spec.layer x0 x3 (fun j => x7 (ix2 (0 : Fin 1) j)) (fun j => x29 (ix2 (0 : Fin 1) j))
          (fun j => x33 (ix2 (0 : Fin 1) j)) (ix2 p q) := by
  rw [pay_stages]
  have hh : ∀ (p : Fin 5000) (j : Fin 128), act x0 x3 x7 (ix2 p j)
      = Cert.Spec.relu (Cert.Spec.dense x0 x3 (fun j => x7 (ix2 (0 : Fin 1) j))) (ix2 p j) := act_at x0 x3 x7
  show dev (act x0 x3 x7) (ix2 p q)
        * broadcastTo S5000x128
            (rsqrt (addf (colMean (mulf (dev (act x0 x3 x7)) (dev (act x0 x3 x7))))
              (broadcast S5000x1 (Scalar.ofBits .f32 0x3727C5AC#32))))
            broadcasts_S5000x1_S5000x128 (ix2 p q)
        * broadcastTo S5000x128 (shapeCast S1x128 x29 shapeCasts_S1x128_S1x128) broadcasts_S1x128_S5000x128 (ix2 p q)
      + broadcastTo S5000x128 (shapeCast S1x128 x33 shapeCasts_S1x128_S1x128) broadcasts_S1x128_S5000x128 (ix2 p q)
      = Cert.Spec.centred (Cert.Spec.relu (Cert.Spec.dense x0 x3 (fun j => x7 (ix2 (0 : Fin 1) j)))) (ix2 p q)
        * Ideal.rsqrt (Cert.Spec.rowVar (Cert.Spec.relu (Cert.Spec.dense x0 x3 (fun j => x7 (ix2 (0 : Fin 1) j)))) p
            + Ideal.ofBits .f32 0x3727C5AC#32)
        * x29 (ix2 (0 : Fin 1) q) + x33 (ix2 (0 : Fin 1) q)
  rw [row_bcast_at, row_bcast_at, Cert.Lib.broadcastTo_a1_ab_apply, dev_spec _ _ hh]
  show _ * Ideal.rsqrt (colMean (mulf (dev (act x0 x3 x7)) (dev (act x0 x3 x7))) (ix2 p (0 : Fin 1))
        + Ideal.ofBits .f32 0x3727C5AC#32) * _ + _ = _
  rw [var_spec _ _ hh]

/-- The second layer region's body is the same term. -/
theorem layer_payload2 (x0 : Vec Ideal S5000x128 .f32) (x3 : Vec Ideal S128x128 .f32) (x7 x29 x33 : Vec Ideal S1x128 .f32)
    (p : Fin 5000) (q : Fin 128) :
    k2_pay1 (F := Ideal) x0 x3 x7 x29 x33 (ix2 p q)
      = Cert.Spec.layer x0 x3 (fun j => x7 (ix2 (0 : Fin 1) j)) (fun j => x29 (ix2 (0 : Fin 1) j))
          (fun j => x33 (ix2 (0 : Fin 1) j)) (ix2 p q) :=
  layer_payload x0 x3 x7 x29 x33 p q

end Cert.KernelIdeal.RegionValue

end
-- ==== Proof.Region1.lean ====
/-
  The fused linear + rectifier + row-normalization region as one function of whole arrays.

  The grid has 20 points. Point `t` reads rows `5000 t … 5000 t + 4999` of the `[100000, 128]` input, the whole
  `[128, 128]` weight and the whole `[1, 128]` bias, gain and shift rows, and writes rows `5000 t … 5000 t + 4999` of
  the `[100000, 128]` output. What it writes at row `p`, column `q` of its block is the layer of the blocks it read at
  that entry. An entry of a layer depends on its own row of the input only, so that value is the layer of the WHOLE
  arrays at row `5000 t + p`, column `q`: each point writes its block of the one function `layer` of the whole arrays.
  The 20 blocks of rows tile the output (row `r` lies in block `r / 5000`), so the output array ends holding that
  function everywhere.
-/
import proofs.«104313_j32349693673727_1_alg».proof.Proof.Gen.KernelIdeal.Frame
import proofs.«104313_j32349693673727_1_alg».proof.Proof.Spec
import proofs.«104313_j32349693673727_1_alg».proof.Proof.LayerPayload
import Idealize.ShloMosaic.Lib.Pipeline.Value
import Idealize.ShloMosaic.Lib.ValueIdx
import Idealize.ShloMosaic.PureOps.Ideal

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The offsets of a whole-buffer access, both zero. -/
private theorem zero_offsets : (![0, 0] : Fin 2 → Nat) = fun _ => 0 := funext fun a => by fin_cases a <;> rfl

/-! ## Which block each window holds at a point -/

/-- The block indices, decided over the 20 points: the input and the output are at block `(t, 0)`, the weight and the
    three rows at block `(0, 0)`. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- An index of the output array is in point `t`'s block iff each coordinate is in the block's range on its axis. -/
theorem mem_block1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v21).slice (win1_5.rect t)).set ↔ _
  rw [View.set_slice_whole, Rect.mem_set_unit]
  exact Iff.rfl

/-- The blocks tile the output: row `r` is in the block of point `r / 5000`, which writes back. -/
theorem rows_covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  refine ⟨t, flush1_5 t, ?_⟩
  rw [mem_block1]
  obtain ⟨-, -, -, -, -, -, -, -, -, -, e0, e1⟩ := block_indices1 t
  have ht : t.val = (i 0).val / 5000 := rfl
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-! ## The blocks read, in terms of the whole arrays -/

variable (V : (c : Dev nD) → (b : Ref sig .tc) → Buf (Elt Ideal) ((c : Thread nD τ).loc b))

/-- The weight's block is the whole weight: block `(0, 0)` of full extent. -/
theorem weight_block1 (c : Dev nD) (t : Fin cfg1.N) :
    (iblk1 (F := Ideal) V c 1 t : Vec Ideal S128x128 .f32) = (V c main_v3 : S128x128.Idx → Elt Ideal .f32) := by
  obtain ⟨-, -, e0, e1, -⟩ := block_indices1 t
  funext j
  unfold iblk1
  rw [View.read_apply]
  show V c main_v3 _ = V c main_v3 j
  congr 1
  funext a
  apply Fin.ext
  match a with
  | ⟨0, _⟩ => show win1_1.index t (0 : Fin 2) * 128 + 1 * (j 0).val = (j 0).val; omega
  | ⟨1, _⟩ => show win1_1.index t (1 : Fin 2) * 128 + 1 * (j 1).val = (j 1).val; omega

/-- The bias row's block is the whole row. -/
theorem bias_block1 (c : Dev nD) (t : Fin cfg1.N) :
    (iblk1 (F := Ideal) V c 2 t : Vec Ideal S1x128 .f32) = (V c main_v20 : S1x128.Idx → Elt Ideal .f32) := by
  obtain ⟨-, -, -, -, e0, e1, -⟩ := block_indices1 t
  funext j
  unfold iblk1
  rw [View.read_apply]
  show V c main_v20 _ = V c main_v20 j
  congr 1
  funext a
  apply Fin.ext
  match a with
  | ⟨0, _⟩ => show win1_2.index t (0 : Fin 2) * 1 + 1 * (j 0).val = (j 0).val; omega
  | ⟨1, _⟩ => show win1_2.index t (1 : Fin 2) * 128 + 1 * (j 1).val = (j 1).val; omega

/-- The gain row's block is the whole row. -/
theorem gain_block1 (c : Dev nD) (t : Fin cfg1.N) :
    (iblk1 (F := Ideal) V c 3 t : Vec Ideal S1x128 .f32) = (V c main_v5 : S1x128.Idx → Elt Ideal .f32) := by
  obtain ⟨-, -, -, -, -, -, e0, e1, -⟩ := block_indices1 t
  funext j
  unfold iblk1
  rw [View.read_apply]
  show V c main_v5 _ = V c main_v5 j
  congr 1
  funext a
  apply Fin.ext
  match a with
  | ⟨0, _⟩ => show win1_3.index t (0 : Fin 2) * 1 + 1 * (j 0).val = (j 0).val; omega
  | ⟨1, _⟩ => show win1_3.index t (1 : Fin 2) * 128 + 1 * (j 1).val = (j 1).val; omega

/-- The shift row's block is the whole row. -/
theorem shift_block1 (c : Dev nD) (t : Fin cfg1.N) :
    (iblk1 (F := Ideal) V c 4 t : Vec Ideal S1x128 .f32) = (V c main_v6 : S1x128.Idx → Elt Ideal .f32) := by
  obtain ⟨-, -, -, -, -, -, -, -, e0, e1, -⟩ := block_indices1 t
  funext j
  unfold iblk1
  rw [View.read_apply]
  show V c main_v6 _ = V c main_v6 j
  congr 1
  funext a
  apply Fin.ext
  match a with
  | ⟨0, _⟩ => show win1_4.index t (0 : Fin 2) * 1 + 1 * (j 0).val = (j 0).val; omega
  | ⟨1, _⟩ => show win1_4.index t (1 : Fin 2) * 128 + 1 * (j 1).val = (j 1).val; omega

/-- Row `p` of the input's block at point `t` is the row of the input array that row `p` of the output's block lands on:
    both windows are at block `(t, 0)`, so both are row `5000 t + p`. -/
theorem input_block1 (c : Dev nD) (t : Fin cfg1.N) (p : Fin 5000) (q k : Fin 128) :
    (iblk1 (F := Ideal) V c 0 t : Vec Ideal S5000x128 .f32) (ix2 p k)
      = (V c main_v19 : S100000x128.Idx → Elt Ideal .f32)
          (ix2 ((((cfg1.win 5).blk t).view.emb (ix2 p q) : S100000x128.Idx) 0) k) := by
  obtain ⟨e0, e1, -, -, -, -, -, -, -, -, e10, e11⟩ := block_indices1 t
  unfold iblk1
  rw [View.read_apply]
  show V c main_v19 _ = V c main_v19 _
  congr 1
  funext a
  apply Fin.ext
  match a with
  | ⟨0, _⟩ => show win1_0.index t (0 : Fin 2) * 5000 + 1 * p.val = win1_5.index t (0 : Fin 2) * 5000 + 1 * p.val; omega
  | ⟨1, _⟩ => show win1_0.index t (1 : Fin 2) * 128 + 1 * k.val = k.val; omega

/-- Column `q` of the output's block is column `q` of the output array. -/
theorem output_column1 (t : Fin cfg1.N) (p : Fin 5000) (q : Fin 128) :
    (((cfg1.win 5).blk t).view.emb (ix2 p q) : S100000x128.Idx) 1 = q := by
  obtain ⟨-, -, -, -, -, -, -, -, -, -, e10, e11⟩ := block_indices1 t
  apply Fin.ext
  show win1_5.index t (1 : Fin 2) * 128 + 1 * q.val = q.val
  omega

/-! ## What a point writes back, and the array after the run -/

/-- The layer of the whole arrays as the region finds them. -/
abbrev layerOf1 (c : Dev nD) : S100000x128.Idx → EReal :=
  Cert.Spec.layer (V c main_v19 : S100000x128.Idx → EReal) (V c main_v3 : S128x128.Idx → EReal)
    (fun j => (V c main_v20 : S1x128.Idx → EReal) (ix2 (0 : Fin 1) j))
    (fun j => (V c main_v5 : S1x128.Idx → EReal) (ix2 (0 : Fin 1) j))
    (fun j => (V c main_v6 : S1x128.Idx → EReal) (ix2 (0 : Fin 1) j))

/-- The body's value at row `p`, column `q` of its block is the layer of the whole arrays at the entry that block
    position lands on: the layer of the blocks there, the small blocks being the whole arrays, and the row of a layer
    depending on the same row of the input only. -/
theorem layer_entry1 (c : Dev nD) (t : Fin cfg1.N) (p : Fin 5000) (q : Fin 128) :
    k1_pay1 (F := Ideal) (iblk1 V c 0 t) (iblk1 V c 1 t) (iblk1 V c 2 t) (iblk1 V c 3 t) (iblk1 V c 4 t) (ix2 p q)
      = layerOf1 V c (((cfg1.win 5).blk t).view.emb (ix2 p q)) := by
  have hi : (((cfg1.win 5).blk t).view.emb (ix2 p q) : S100000x128.Idx)
      = ix2 ((((cfg1.win 5).blk t).view.emb (ix2 p q) : S100000x128.Idx) 0) q := by
    funext a
    match a with
    | ⟨0, _⟩ => rfl
    | ⟨1, _⟩ => exact output_column1 t p q
  refine (layer_payload _ _ _ _ _ p q).trans ?_
  rw [weight_block1 V c t, bias_block1 V c t, gain_block1 V c t, shift_block1 V c t]
  refine (Cert.Spec.layer_rows _ (V c main_v19 : S100000x128.Idx → EReal) _ _ _ _ p _
    (fun k => input_block1 V c t p q k) q).trans ?_
  exact congrArg (layerOf1 V c) hi.symm

/-- What point `t` writes back is block `t` of the layer of the whole arrays. -/
theorem flushed1_eq (c : Dev nD) (t : Fin cfg1.N) :
    (dat1 (F := Ideal) V c).flushed 5 t = ((cfg1.win 5).blk t).view.read (Elt Ideal) (layerOf1 V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  funext y
  obtain ⟨p, q, rfl⟩ : ∃ (p : Fin 5000) (q : Fin 128), y = ix2 p q := ⟨y 0, y 1, eq_ix2 (n0 := 5000) (n1 := 128) y⟩
  exact layer_entry1 V c t p q

/-- The output array after the run is the layer of the arrays the region found: every point writes its block of that
    one function, and the blocks tile the array. -/
theorem layer_array1 (c : Dev nD) :
    (dat1 (F := Ideal) V c).arrAt 5 cfg1.N
      = Cert.Spec.layer (V c main_v19 : S100000x128.Idx → EReal) (V c main_v3 : S128x128.Idx → EReal)
          (fun j => (V c main_v20 : S1x128.Idx → EReal) (ix2 (0 : Fin 1) j))
          (fun j => (V c main_v5 : S1x128.Idx → EReal) (ix2 (0 : Fin 1) j))
          (fun j => (V c main_v6 : S1x128.Idx → EReal) (ix2 (0 : Fin 1) j)) :=
  (dat1 V c).arrAt_eq_of_cover 5 (layerOf1 V c) (fun t _ => flushed1_eq V c t) rows_covered1

end Cert.KernelIdeal.RegionValue

end
-- ==== Proof.Region2.lean ====
/-
  The fused linear + rectifier + row-normalization region as one function of whole arrays.

  The grid has 20 points. Point `t` reads rows `5000 t … 5000 t + 4999` of the `[100000, 128]` input, the whole
  `[128, 128]` weight and the whole `[1, 128]` bias, gain and shift rows, and writes rows `5000 t … 5000 t + 4999` of
  the `[100000, 128]` output. What it writes at row `p`, column `q` of its block is the layer of the blocks it read at
  that entry. An entry of a layer depends on its own row of the input only, so that value is the layer of the WHOLE
  arrays at row `5000 t + p`, column `q`: each point writes its block of the one function `layer` of the whole arrays.
  The 20 blocks of rows tile the output (row `r` lies in block `r / 5000`), so the output array ends holding that
  function everywhere.
-/
import proofs.«104313_j32349693673727_1_alg».proof.Proof.Gen.KernelIdeal.Frame
import proofs.«104313_j32349693673727_1_alg».proof.Proof.Spec
import proofs.«104313_j32349693673727_1_alg».proof.Proof.LayerPayload
import Idealize.ShloMosaic.Lib.Pipeline.Value
import Idealize.ShloMosaic.Lib.ValueIdx
import Idealize.ShloMosaic.PureOps.Ideal

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The offsets of a whole-buffer access, both zero. -/
private theorem zero_offsets : (![0, 0] : Fin 2 → Nat) = fun _ => 0 := funext fun a => by fin_cases a <;> rfl

/-! ## Which block each window holds at a point -/

/-- The block indices, decided over the 20 points: the input and the output are at block `(t, 0)`, the weight and the
    three rows at block `(0, 0)`. -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- An index of the output array is in point `t`'s block iff each coordinate is in the block's range on its axis. -/
theorem mem_block2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v36).slice (win2_5.rect t)).set ↔ _
  rw [View.set_slice_whole, Rect.mem_set_unit]
  exact Iff.rfl

/-- The blocks tile the output: row `r` is in the block of point `r / 5000`, which writes back. -/
theorem rows_covered2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  refine ⟨t, flush2_5 t, ?_⟩
  rw [mem_block2]
  obtain ⟨-, -, -, -, -, -, -, -, -, -, e0, e1⟩ := block_indices2 t
  have ht : t.val = (i 0).val / 5000 := rfl
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-! ## The blocks read, in terms of the whole arrays -/

variable (V : (c : Dev nD) → (b : Ref sig .tc) → Buf (Elt Ideal) ((c : Thread nD τ).loc b))

/-- The weight's block is the whole weight: block `(0, 0)` of full extent. -/
theorem weight_block2 (c : Dev nD) (t : Fin cfg2.N) :
    (iblk2 (F := Ideal) V c 1 t : Vec Ideal S128x128 .f32) = (V c main_v4 : S128x128.Idx → Elt Ideal .f32) := by
  obtain ⟨-, -, e0, e1, -⟩ := block_indices2 t
  funext j
  unfold iblk2
  rw [View.read_apply]
  show V c main_v4 _ = V c main_v4 j
  congr 1
  funext a
  apply Fin.ext
  match a with
  | ⟨0, _⟩ => show win2_1.index t (0 : Fin 2) * 128 + 1 * (j 0).val = (j 0).val; omega
  | ⟨1, _⟩ => show win2_1.index t (1 : Fin 2) * 128 + 1 * (j 1).val = (j 1).val; omega

/-- The bias row's block is the whole row. -/
theorem bias_block2 (c : Dev nD) (t : Fin cfg2.N) :
    (iblk2 (F := Ideal) V c 2 t : Vec Ideal S1x128 .f32) = (V c main_v35 : S1x128.Idx → Elt Ideal .f32) := by
  obtain ⟨-, -, -, -, e0, e1, -⟩ := block_indices2 t
  funext j
  unfold iblk2
  rw [View.read_apply]
  show V c main_v35 _ = V c main_v35 j
  congr 1
  funext a
  apply Fin.ext
  match a with
  | ⟨0, _⟩ => show win2_2.index t (0 : Fin 2) * 1 + 1 * (j 0).val = (j 0).val; omega
  | ⟨1, _⟩ => show win2_2.index t (1 : Fin 2) * 128 + 1 * (j 1).val = (j 1).val; omega

/-- The gain row's block is the whole row. -/
theorem gain_block2 (c : Dev nD) (t : Fin cfg2.N) :
    (iblk2 (F := Ideal) V c 3 t : Vec Ideal S1x128 .f32) = (V c main_v5 : S1x128.Idx → Elt Ideal .f32) := by
  obtain ⟨-, -, -, -, -, -, e0, e1, -⟩ := block_indices2 t
  funext j
  unfold iblk2
  rw [View.read_apply]
  show V c main_v5 _ = V c main_v5 j
  congr 1
  funext a
  apply Fin.ext
  match a with
  | ⟨0, _⟩ => show win2_3.index t (0 : Fin 2) * 1 + 1 * (j 0).val = (j 0).val; omega
  | ⟨1, _⟩ => show win2_3.index t (1 : Fin 2) * 128 + 1 * (j 1).val = (j 1).val; omega

/-- The shift row's block is the whole row. -/
theorem shift_block2 (c : Dev nD) (t : Fin cfg2.N) :
    (iblk2 (F := Ideal) V c 4 t : Vec Ideal S1x128 .f32) = (V c main_v6 : S1x128.Idx → Elt Ideal .f32) := by
  obtain ⟨-, -, -, -, -, -, -, -, e0, e1, -⟩ := block_indices2 t
  funext j
  unfold iblk2
  rw [View.read_apply]
  show V c main_v6 _ = V c main_v6 j
  congr 1
  funext a
  apply Fin.ext
  match a with
  | ⟨0, _⟩ => show win2_4.index t (0 : Fin 2) * 1 + 1 * (j 0).val = (j 0).val; omega
  | ⟨1, _⟩ => show win2_4.index t (1 : Fin 2) * 128 + 1 * (j 1).val = (j 1).val; omega

/-- Row `p` of the input's block at point `t` is the row of the input array that row `p` of the output's block lands on:
    both windows are at block `(t, 0)`, so both are row `5000 t + p`. -/
theorem input_block2 (c : Dev nD) (t : Fin cfg2.N) (p : Fin 5000) (q k : Fin 128) :
    (iblk2 (F := Ideal) V c 0 t : Vec Ideal S5000x128 .f32) (ix2 p k)
      = (V c main_v34 : S100000x128.Idx → Elt Ideal .f32)
          (ix2 ((((cfg2.win 5).blk t).view.emb (ix2 p q) : S100000x128.Idx) 0) k) := by
  obtain ⟨e0, e1, -, -, -, -, -, -, -, -, e10, e11⟩ := block_indices2 t
  unfold iblk2
  rw [View.read_apply]
  show V c main_v34 _ = V c main_v34 _
  congr 1
  funext a
  apply Fin.ext
  match a with
  | ⟨0, _⟩ => show win2_0.index t (0 : Fin 2) * 5000 + 1 * p.val = win2_5.index t (0 : Fin 2) * 5000 + 1 * p.val; omega
  | ⟨1, _⟩ => show win2_0.index t (1 : Fin 2) * 128 + 1 * k.val = k.val; omega

/-- Column `q` of the output's block is column `q` of the output array. -/
theorem output_column2 (t : Fin cfg2.N) (p : Fin 5000) (q : Fin 128) :
    (((cfg2.win 5).blk t).view.emb (ix2 p q) : S100000x128.Idx) 1 = q := by
  obtain ⟨-, -, -, -, -, -, -, -, -, -, e10, e11⟩ := block_indices2 t
  apply Fin.ext
  show win2_5.index t (1 : Fin 2) * 128 + 1 * q.val = q.val
  omega

/-! ## What a point writes back, and the array after the run -/

/-- The layer of the whole arrays as the region finds them. -/
abbrev layerOf2 (c : Dev nD) : S100000x128.Idx → EReal :=
  Cert.Spec.layer (V c main_v34 : S100000x128.Idx → EReal) (V c main_v4 : S128x128.Idx → EReal)
    (fun j => (V c main_v35 : S1x128.Idx → EReal) (ix2 (0 : Fin 1) j))
    (fun j => (V c main_v5 : S1x128.Idx → EReal) (ix2 (0 : Fin 1) j))
    (fun j => (V c main_v6 : S1x128.Idx → EReal) (ix2 (0 : Fin 1) j))

/-- The body's value at row `p`, column `q` of its block is the layer of the whole arrays at the entry that block
    position lands on: the layer of the blocks there, the small blocks being the whole arrays, and the row of a layer
    depending on the same row of the input only. -/
theorem layer_entry2 (c : Dev nD) (t : Fin cfg2.N) (p : Fin 5000) (q : Fin 128) :
    k2_pay1 (F := Ideal) (iblk2 V c 0 t) (iblk2 V c 1 t) (iblk2 V c 2 t) (iblk2 V c 3 t) (iblk2 V c 4 t) (ix2 p q)
      = layerOf2 V c (((cfg2.win 5).blk t).view.emb (ix2 p q)) := by
  have hi : (((cfg2.win 5).blk t).view.emb (ix2 p q) : S100000x128.Idx)
      = ix2 ((((cfg2.win 5).blk t).view.emb (ix2 p q) : S100000x128.Idx) 0) q := by
    funext a
    match a with
    | ⟨0, _⟩ => rfl
    | ⟨1, _⟩ => exact output_column2 t p q
  refine (layer_payload2 _ _ _ _ _ p q).trans ?_
  rw [weight_block2 V c t, bias_block2 V c t, gain_block2 V c t, shift_block2 V c t]
  refine (Cert.Spec.layer_rows _ (V c main_v34 : S100000x128.Idx → EReal) _ _ _ _ p _
    (fun k => input_block2 V c t p q k) q).trans ?_
  exact congrArg (layerOf2 V c) hi.symm

/-- What point `t` writes back is block `t` of the layer of the whole arrays. -/
theorem flushed2_eq (c : Dev nD) (t : Fin cfg2.N) :
    (dat2 (F := Ideal) V c).flushed 5 t = ((cfg2.win 5).blk t).view.read (Elt Ideal) (layerOf2 V c) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x128) zero_offsets,
    View.ld_unit_zero (S := S1x128) zero_offsets]
  funext y
  obtain ⟨p, q, rfl⟩ : ∃ (p : Fin 5000) (q : Fin 128), y = ix2 p q := ⟨y 0, y 1, eq_ix2 (n0 := 5000) (n1 := 128) y⟩
  exact layer_entry2 V c t p q

/-- The output array after the run is the layer of the arrays the region found: every point writes its block of that
    one function, and the blocks tile the array. -/
theorem layer_array2 (c : Dev nD) :
    (dat2 (F := Ideal) V c).arrAt 5 cfg2.N
      = Cert.Spec.layer (V c main_v34 : S100000x128.Idx → EReal) (V c main_v4 : S128x128.Idx → EReal)
          (fun j => (V c main_v35 : S1x128.Idx → EReal) (ix2 (0 : Fin 1) j))
          (fun j => (V c main_v5 : S1x128.Idx → EReal) (ix2 (0 : Fin 1) j))
          (fun j => (V c main_v6 : S1x128.Idx → EReal) (ix2 (0 : Fin 1) j)) :=
  (dat2 V c).arrAt_eq_of_cover 5 (layerOf2 V c) (fun t _ => flushed2_eq V c t) rows_covered2

end Cert.KernelIdeal.RegionValue

end
-- ==== Proof.RefSpec.lean ====
/-
  The reference program's dense projection and its two normalized layers are the functions of the specification.

  Each stage of the reference is read entry by entry. A dense stage is a row of the input times the transposed weight,
  plus the bias row broadcast over the rows. A normalized layer takes the rectified dense stage `h`, sums each row and
  divides by the literal 128 (the row mean), subtracts that mean from every entry of the row, averages the squared
  deviations in the same way (the row variance), scales each deviation by the reciprocal square root of the variance
  plus the literal ε and then by the gain, and shifts by the offset. The only arithmetic fact used is that both sums
  start from the zero word, whose value is 0, so the initial value drops out; everything else is a matter of which entry
  each broadcast, transpose and reduction reads.
-/
import proofs.«104313_j32349693673727_1_alg».proof.Proof.Gen.ReferenceIdeal.Read
import proofs.«104313_j32349693673727_1_alg».proof.Proof.Spec

noncomputable section

open Cert.ReferenceIdeal Cert.ReferenceIdeal.Gen Cert.ReferenceIdeal.Read Idealize.ShloMosaic Idealize.ShloMosaic.TcCoe
  Idealize.SL.Sem Idealize.ShloMosaic.ValueIdx

namespace Cert.ReferenceIdeal.RefValue

/-- Two rank-2 index maps are equal when they agree coordinate by coordinate; every coordinate here computes. -/
local macro "coords" : tactic =>
  `(tactic| (funext a; match a with | ⟨0, _⟩ => rfl | ⟨1, _⟩ => rfl))

/-- The same for rank-1 index maps. -/
local macro "coord" : tactic =>
  `(tactic| (funext a; match a with | ⟨0, _⟩ => rfl))

/-! ## The dense projection -/

/-- The projection of the reference is the specification's dense map of the input, the transposed weight and the bias. -/
theorem ref_dense (x0 : (⟨S100000x256, .f32⟩ : BufTy).Contents (Elt Ideal)) (x6 : (⟨S128x256, .f32⟩ : BufTy).Contents (Elt Ideal))
    (x7 : (⟨S128, .f32⟩ : BufTy).Contents (Elt Ideal)) :
    val_main_v4 (F := Ideal) x0 x6 x7
      = Cert.Spec.dense x0 (val_main_v0 (F := Ideal) x6) (fun j => x7 (ix1 j)) := by
  funext i
  obtain ⟨r, q, rfl⟩ : ∃ (r : Fin 100000) (q : Fin 128), i = ix2 r q := ⟨i 0, i 1, eq_ix2 i⟩
  rw [val_main_v4_apply, val_main_v1_apply, val_main_v3_apply, val_main_v2_apply,
    show idx_main_v2 (idx_main_v3 (ix2 r q)) = ix1 q by coord]
  generalize val_main_v0 (F := Ideal) x6 = w
  refine congrArg (· + x7 (ix1 q)) (Finset.sum_congr rfl fun k _ => ?_)
  rw [show lidx_main_v1 (ix2 r q) k = ix2 r k by coords, show ridx_main_v1 (ix2 r q) k = ix2 k q by coords]

/-! ## The first normalized layer -/

section
variable (x0 : (⟨S100000x256, .f32⟩ : BufTy).Contents (Elt Ideal))
    (x1 x2 : (⟨S800000, .i32⟩ : BufTy).Contents (Elt Ideal)) (x3 : (⟨S800000, .f32⟩ : BufTy).Contents (Elt Ideal))
    (x6 : (⟨S128x256, .f32⟩ : BufTy).Contents (Elt Ideal)) (x7 : (⟨S128, .f32⟩ : BufTy).Contents (Elt Ideal))
    (x8 : (⟨S128x128, .f32⟩ : BufTy).Contents (Elt Ideal)) (x9 x12 x13 : (⟨S128, .f32⟩ : BufTy).Contents (Elt Ideal))

/-- The rectified dense stage. -/
theorem l1_rect (r : Fin 100000) (j : Fin 128) :
    val_main_v23 (F := Ideal) x0 x1 x2 x3 x6 x7 x8 x9 (ix2 r j)
      = Cert.Spec.relu (Cert.Spec.dense (val_main_v17 (F := Ideal) x0 x1 x2 x3 x6 x7) (val_main_v18 (F := Ideal) x8)
          (fun j => x9 (ix1 j))) (ix2 r j) := by
  rw [val_main_v23_apply, val_main_v22_apply, val_main_v19_apply, val_main_v21_apply, val_main_v20_apply, val_main_call0_v0_apply,
    val_main_call0_cst_apply, show idx_main_v20 (idx_main_v21 (ix2 r j)) = ix1 j by coord]
  generalize val_main_v17 (F := Ideal) x0 x1 x2 x3 x6 x7 = x
  generalize val_main_v18 (F := Ideal) x8 = w
  refine congrArg (max · (Ideal.ofBits .f32 0x00000000#32)) (congrArg (· + x9 (ix1 j)) ?_)
  refine Finset.sum_congr rfl fun k _ => ?_
  rw [show lidx_main_v19 (ix2 r j) k = ix2 r k by coords, show ridx_main_v19 (ix2 r j) k = ix2 k j by coords]

/-- The row mean: the sum starts from the zero word, then the division by the literal 128. -/
theorem l1_mean (r : Fin 100000) :
    val_main_v27 (F := Ideal) x0 x1 x2 x3 x6 x7 x8 x9 (ix2 r (0 : Fin 1))
      = Cert.Spec.rowMean (val_main_v23 (F := Ideal) x0 x1 x2 x3 x6 x7 x8 x9) r := by
  rw [val_main_v27_apply, val_main_v25_apply, val_main_v24_apply, val_main_v26_apply, val_main_cst_2_apply, val_main_cst_1_apply,
    Ideal.ofBits_def, Ideal.ofBits_zero_f32, zero_add]
  generalize val_main_v23 (F := Ideal) x0 x1 x2 x3 x6 x7 x8 x9 = h
  refine congrArg (Ideal.div · (Ideal.ofBits .f32 0x43000000#32)) (Finset.sum_congr rfl fun k _ => ?_)
  rw [show idx_main_v24 (idx_main_v25 (ix2 r (0 : Fin 1))) k = ix2 r k by coords]

/-- The deviation from the row mean, as the variance uses it. -/
theorem l1_dev (r : Fin 100000) (q : Fin 128) :
    val_main_v29 (F := Ideal) x0 x1 x2 x3 x6 x7 x8 x9 (ix2 r q)
      = Cert.Spec.centred (val_main_v23 (F := Ideal) x0 x1 x2 x3 x6 x7 x8 x9) (ix2 r q) := by
  rw [val_main_v29_apply, val_main_v28_apply, show idx_main_v28 (ix2 r q) = ix2 r (0 : Fin 1) by coords, l1_mean]
  rfl

/-- The same deviation, computed a second time for the result. -/
theorem l1_dev' (r : Fin 100000) (q : Fin 128) :
    val_main_v36 (F := Ideal) x0 x1 x2 x3 x6 x7 x8 x9 (ix2 r q)
      = Cert.Spec.centred (val_main_v23 (F := Ideal) x0 x1 x2 x3 x6 x7 x8 x9) (ix2 r q) := by
  rw [val_main_v36_apply, val_main_v35_apply, show idx_main_v35 (ix2 r q) = ix2 r (0 : Fin 1) by coords, l1_mean]
  rfl

/-- The row variance: the mean of the squared deviations. -/
theorem l1_var (r : Fin 100000) :
    val_main_v34 (F := Ideal) x0 x1 x2 x3 x6 x7 x8 x9 (ix2 r (0 : Fin 1))
      = Cert.Spec.rowVar (val_main_v23 (F := Ideal) x0 x1 x2 x3 x6 x7 x8 x9) r := by
  rw [val_main_v34_apply, val_main_v32_apply, val_main_v31_apply, val_main_v33_apply, val_main_cst_4_apply, val_main_cst_3_apply,
    Ideal.ofBits_def, Ideal.ofBits_zero_f32, zero_add]
  refine congrArg (Ideal.div · (Ideal.ofBits .f32 0x43000000#32)) (Finset.sum_congr rfl fun k _ => ?_)
  rw [show idx_main_v31 (idx_main_v32 (ix2 r (0 : Fin 1))) k = ix2 r k by coords, val_main_v30_apply, l1_dev]
  rfl

/-- The normalized, scaled and shifted entry. -/
theorem l1_norm (r : Fin 100000) (q : Fin 128) :
    val_main_v47 (F := Ideal) x0 x1 x2 x3 x6 x7 x8 x9 x12 x13 (ix2 r q)
      = Cert.Spec.layerNorm (val_main_v23 (F := Ideal) x0 x1 x2 x3 x6 x7 x8 x9) (fun j => x12 (ix1 j)) (fun j => x13 (ix1 j)) (ix2 r q) := by
  rw [val_main_v47_apply, val_main_v44_apply, val_main_v41_apply, l1_dev', val_main_v40_apply,
    show idx_main_v40 (ix2 r q) = ix2 r (0 : Fin 1) by coords, val_main_v39_apply, val_main_v38_apply, l1_var, val_main_v37_apply,
    val_main_cst_5_apply, val_main_v43_apply, val_main_v42_apply, show idx_main_v42 (idx_main_v43 (ix2 r q)) = ix1 q by coord,
    val_main_v46_apply, val_main_v45_apply, show idx_main_v45 (idx_main_v46 (ix2 r q)) = ix1 q by coord]
  rfl

end

/-- The first layer of the reference is the specification's layer of the first scattered array. -/
theorem ref_layer1 (x0 : (⟨S100000x256, .f32⟩ : BufTy).Contents (Elt Ideal))
    (x1 x2 : (⟨S800000, .i32⟩ : BufTy).Contents (Elt Ideal)) (x3 : (⟨S800000, .f32⟩ : BufTy).Contents (Elt Ideal))
    (x6 : (⟨S128x256, .f32⟩ : BufTy).Contents (Elt Ideal)) (x7 : (⟨S128, .f32⟩ : BufTy).Contents (Elt Ideal))
    (x8 : (⟨S128x128, .f32⟩ : BufTy).Contents (Elt Ideal)) (x9 x12 x13 : (⟨S128, .f32⟩ : BufTy).Contents (Elt Ideal)) :
    val_main_v47 (F := Ideal) x0 x1 x2 x3 x6 x7 x8 x9 x12 x13
      = Cert.Spec.layer (val_main_v17 (F := Ideal) x0 x1 x2 x3 x6 x7) (val_main_v18 (F := Ideal) x8)
          (fun j => x9 (ix1 j)) (fun j => x12 (ix1 j)) (fun j => x13 (ix1 j)) := by
  have hrect : val_main_v23 (F := Ideal) x0 x1 x2 x3 x6 x7 x8 x9
      = Cert.Spec.relu (Cert.Spec.dense (val_main_v17 (F := Ideal) x0 x1 x2 x3 x6 x7) (val_main_v18 (F := Ideal) x8)
          (fun j => x9 (ix1 j))) := by
    funext i
    obtain ⟨r, j, rfl⟩ : ∃ (r : Fin 100000) (j : Fin 128), i = ix2 r j := ⟨i 0, i 1, eq_ix2 i⟩
    exact l1_rect x0 x1 x2 x3 x6 x7 x8 x9 r j
  funext i
  obtain ⟨r, q, rfl⟩ : ∃ (r : Fin 100000) (q : Fin 128), i = ix2 r q := ⟨i 0, i 1, eq_ix2 i⟩
  rw [l1_norm, hrect]
  rfl

/-! ## The second normalized layer -/

section
variable (x0 : (⟨S100000x256, .f32⟩ : BufTy).Contents (Elt Ideal))
    (x1 x2 : (⟨S800000, .i32⟩ : BufTy).Contents (Elt Ideal)) (x3 : (⟨S800000, .f32⟩ : BufTy).Contents (Elt Ideal))
    (x6 : (⟨S128x256, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 x12 x13 : (⟨S128, .f32⟩ : BufTy).Contents (Elt Ideal))

/-- The rectified dense stage. -/
theorem l2_rect (r : Fin 100000) (j : Fin 128) :
    val_main_v66 (F := Ideal) x0 x1 x2 x3 x6 x7 x8 x9 x10 x11 x12 x13 (ix2 r j)
      = Cert.Spec.relu (Cert.Spec.dense (val_main_v60 (F := Ideal) x0 x1 x2 x3 x6 x7 x8 x9 x12 x13) (val_main_v61 (F := Ideal) x10)
          (fun j => x11 (ix1 j))) (ix2 r j) := by
  rw [val_main_v66_apply, val_main_v65_apply, val_main_v62_apply, val_main_v64_apply, val_main_v63_apply, val_main_call1_v0_apply,
    val_main_call1_cst_apply, show idx_main_v63 (idx_main_v64 (ix2 r j)) = ix1 j by coord]
  generalize val_main_v60 (F := Ideal) x0 x1 x2 x3 x6 x7 x8 x9 x12 x13 = x
  generalize val_main_v61 (F := Ideal) x10 = w
  refine congrArg (max · (Ideal.ofBits .f32 0x00000000#32)) (congrArg (· + x11 (ix1 j)) ?_)
  refine Finset.sum_congr rfl fun k _ => ?_
  rw [show lidx_main_v62 (ix2 r j) k = ix2 r k by coords, show ridx_main_v62 (ix2 r j) k = ix2 k j by coords]

/-- The row mean: the sum starts from the zero word, then the division by the literal 128. -/
theorem l2_mean (r : Fin 100000) :
    val_main_v70 (F := Ideal) x0 x1 x2 x3 x6 x7 x8 x9 x10 x11 x12 x13 (ix2 r (0 : Fin 1))
      = Cert.Spec.rowMean (val_main_v66 (F := Ideal) x0 x1 x2 x3 x6 x7 x8 x9 x10 x11 x12 x13) r := by
  rw [val_main_v70_apply, val_main_v68_apply, val_main_v67_apply, val_main_v69_apply, val_main_cst_10_apply, val_main_cst_9_apply,
    Ideal.ofBits_def, Ideal.ofBits_zero_f32, zero_add]
  generalize val_main_v66 (F := Ideal) x0 x1 x2 x3 x6 x7 x8 x9 x10 x11 x12 x13 = h
  refine congrArg (Ideal.div · (Ideal.ofBits .f32 0x43000000#32)) (Finset.sum_congr rfl fun k _ => ?_)
  rw [show idx_main_v67 (idx_main_v68 (ix2 r (0 : Fin 1))) k = ix2 r k by coords]

/-- The deviation from the row mean, as the variance uses it. -/
theorem l2_dev (r : Fin 100000) (q : Fin 128) :
    val_main_v72 (F := Ideal) x0 x1 x2 x3 x6 x7 x8 x9 x10 x11 x12 x13 (ix2 r q)
      = Cert.Spec.centred (val_main_v66 (F := Ideal) x0 x1 x2 x3 x6 x7 x8 x9 x10 x11 x12 x13) (ix2 r q) := by
  rw [val_main_v72_apply, val_main_v71_apply, show idx_main_v71 (ix2 r q) = ix2 r (0 : Fin 1) by coords, l2_mean]
  rfl

/-- The same deviation, computed a second time for the result. -/
theorem l2_dev' (r : Fin 100000) (q : Fin 128) :
    val_main_v79 (F := Ideal) x0 x1 x2 x3 x6 x7 x8 x9 x10 x11 x12 x13 (ix2 r q)
      = Cert.Spec.centred (val_main_v66 (F := Ideal) x0 x1 x2 x3 x6 x7 x8 x9 x10 x11 x12 x13) (ix2 r q) := by
  rw [val_main_v79_apply, val_main_v78_apply, show idx_main_v78 (ix2 r q) = ix2 r (0 : Fin 1) by coords, l2_mean]
  rfl

/-- The row variance: the mean of the squared deviations. -/
theorem l2_var (r : Fin 100000) :
    val_main_v77 (F := Ideal) x0 x1 x2 x3 x6 x7 x8 x9 x10 x11 x12 x13 (ix2 r (0 : Fin 1))
      = Cert.Spec.rowVar (val_main_v66 (F := Ideal) x0 x1 x2 x3 x6 x7 x8 x9 x10 x11 x12 x13) r := by
  rw [val_main_v77_apply, val_main_v75_apply, val_main_v74_apply, val_main_v76_apply, val_main_cst_12_apply, val_main_cst_11_apply,
    Ideal.ofBits_def, Ideal.ofBits_zero_f32, zero_add]
  refine congrArg (Ideal.div · (Ideal.ofBits .f32 0x43000000#32)) (Finset.sum_congr rfl fun k _ => ?_)
  rw [show idx_main_v74 (idx_main_v75 (ix2 r (0 : Fin 1))) k = ix2 r k by coords, val_main_v73_apply, l2_dev]
  rfl

/-- The normalized, scaled and shifted entry. -/
theorem l2_norm (r : Fin 100000) (q : Fin 128) :
    val_main_v90 (F := Ideal) x0 x1 x2 x3 x6 x7 x8 x9 x10 x11 x12 x13 (ix2 r q)
      = Cert.Spec.layerNorm (val_main_v66 (F := Ideal) x0 x1 x2 x3 x6 x7 x8 x9 x10 x11 x12 x13) (fun j => x12 (ix1 j)) (fun j => x13 (ix1 j)) (ix2 r q) := by
  rw [val_main_v90_apply, val_main_v87_apply, val_main_v84_apply, l2_dev', val_main_v83_apply,
    show idx_main_v83 (ix2 r q) = ix2 r (0 : Fin 1) by coords, val_main_v82_apply, val_main_v81_apply, l2_var, val_main_v80_apply,
    val_main_cst_13_apply, val_main_v86_apply, val_main_v85_apply, show idx_main_v85 (idx_main_v86 (ix2 r q)) = ix1 q by coord,
    val_main_v89_apply, val_main_v88_apply, show idx_main_v88 (idx_main_v89 (ix2 r q)) = ix1 q by coord]
  rfl

end

/-- The second layer of the reference is the specification's layer of the second scattered array. -/
theorem ref_layer2 (x0 : (⟨S100000x256, .f32⟩ : BufTy).Contents (Elt Ideal))
    (x1 x2 : (⟨S800000, .i32⟩ : BufTy).Contents (Elt Ideal)) (x3 : (⟨S800000, .f32⟩ : BufTy).Contents (Elt Ideal))
    (x6 : (⟨S128x256, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 x12 x13 : (⟨S128, .f32⟩ : BufTy).Contents (Elt Ideal)) :
    val_main_v90 (F := Ideal) x0 x1 x2 x3 x6 x7 x8 x9 x10 x11 x12 x13
      = Cert.Spec.layer (val_main_v60 (F := Ideal) x0 x1 x2 x3 x6 x7 x8 x9 x12 x13) (val_main_v61 (F := Ideal) x10)
          (fun j => x11 (ix1 j)) (fun j => x12 (ix1 j)) (fun j => x13 (ix1 j)) := by
  have hrect : val_main_v66 (F := Ideal) x0 x1 x2 x3 x6 x7 x8 x9 x10 x11 x12 x13
      = Cert.Spec.relu (Cert.Spec.dense (val_main_v60 (F := Ideal) x0 x1 x2 x3 x6 x7 x8 x9 x12 x13) (val_main_v61 (F := Ideal) x10)
          (fun j => x11 (ix1 j))) := by
    funext i
    obtain ⟨r, j, rfl⟩ : ∃ (r : Fin 100000) (j : Fin 128), i = ix2 r j := ⟨i 0, i 1, eq_ix2 i⟩
    exact l2_rect x0 x1 x2 x3 x6 x7 x8 x9 x10 x11 x12 x13 r j
  funext i
  obtain ⟨r, q, rfl⟩ : ∃ (r : Fin 100000) (q : Fin 128), i = ix2 r q := ⟨i 0, i 1, eq_ix2 i⟩
  rw [l2_norm, hrect]
  rfl

end Cert.ReferenceIdeal.RefValue

end
-- ==== Proof.KValue.lean ====
/-
  The idealized kernel's result as the reference's function of the launch arrays.

  Walking the run's segment boundaries back: the first region's output array is the dense projection of the input
  rows; each sparse aggregation (gather the neighbour rows, scale, scatter-add into the destination rows) is the same
  host term in both programs, applied to equal arrays; each layer region's output array is the fused
  linear + rectifier + row normalization of the aggregated rows; and the closing host operations (residual sums, the
  four gathers, the row dot products and the bias sums) are again one term applied to equal arrays. Stage by stage the
  kernel's arrays are the reference's stages at the launch arrays.
-/
import proofs.«104313_j32349693673727_1_alg».proof.Proof.Walk
import proofs.«104313_j32349693673727_1_alg».proof.Proof.Region0
import proofs.«104313_j32349693673727_1_alg».proof.Proof.Region1
import proofs.«104313_j32349693673727_1_alg».proof.Proof.Region2
import proofs.«104313_j32349693673727_1_alg».proof.Proof.RefSpec
import proofs.«104313_j32349693673727_1_alg».proof.Proof.Gen.ReferenceIdeal.Read
import Idealize.ShloMosaic.Lib.Pipeline.Value
import Idealize.ShloMosaic.Lib.ValueIdx
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- A vector recast as a one-row matrix reads, at `(0, q)`, the vector at `q`. -/
theorem shapeCast_a_1a_apply {α : Type} {a : ℕ} (x : (⟨1, ![a]⟩ : Shape).Idx → α)
    (h : (⟨1, ![a]⟩ : Shape).ShapeCasts ⟨2, ![1, a]⟩) (u : Fin 1) (q : Fin a) :
    shapeCast ⟨2, ![1, a]⟩ x h (ix2 u q) = x (ix1 q) :=
  shapeCast_apply x h _ _ (by
    have hu : u.val = 0 := by omega
    rw [Shape.rowMajor_val_two, Shape.rowMajor_val_one]
    show q.val = u.val * a + q.val
    rw [hu, Nat.zero_mul, Nat.zero_add])

/-! ## The two programs' operation records

Each host gather and scatter is printed with a record of its dimension numbers, once per program; the two records of an
operation hold the same numbers. -/

theorem scatter_rows_rec : scatter_S100000x128_S800000x1_S800000x128_1_0_0_1
    = Cert.ReferenceIdeal.scatter_S100000x128_S800000x1_S800000x128_1_0_0_1 := rfl
theorem gather_rows_rec : gather_S100000x128_S800000x1_S800000x128_1_0_n_n_0_1_1128
    = Cert.ReferenceIdeal.gather_S100000x128_S800000x1_S800000x128_1_0_n_n_0_1_1128 := rfl
theorem gather_user_rec : gather_S50000x128_S4096x1_S4096x128_1_0_n_n_0_1_1128
    = Cert.ReferenceIdeal.gather_S50000x128_S4096x1_S4096x128_1_0_n_n_0_1_1128 := rfl
theorem gather_item_rec : gather_S100000x128_S4096x1_S4096x128_1_0_n_n_0_1_1128
    = Cert.ReferenceIdeal.gather_S100000x128_S4096x1_S4096x128_1_0_n_n_0_1_1128 := rfl
theorem gather_user_bias_rec : gather_S50000x1_S4096x2_S4096_n_01_n_n_01_1_11
    = Cert.ReferenceIdeal.gather_S50000x1_S4096x2_S4096_n_01_n_n_01_1_11 := rfl
theorem gather_item_bias_rec : gather_S100000x1_S4096x2_S4096_n_01_n_n_01_1_11
    = Cert.ReferenceIdeal.gather_S100000x1_S4096x2_S4096_n_01_n_n_01_1_11 := rfl

/-! ## The launch arrays -/

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)
abbrev a12 (c : Dev nD) := m ((c : Thread nD τ).loc main_arg12)
abbrev a13 (c : Dev nD) := m ((c : Thread nD τ).loc main_arg13)
abbrev a14 (c : Dev nD) := m ((c : Thread nD τ).loc main_arg14)
abbrev a15 (c : Dev nD) := m ((c : Thread nD τ).loc main_arg15)
abbrev a16 (c : Dev nD) := m ((c : Thread nD τ).loc main_arg16)
abbrev a17 (c : Dev nD) := m ((c : Thread nD τ).loc main_arg17)
abbrev a18 (c : Dev nD) := m ((c : Thread nD τ).loc main_arg18)

/-! ## The first region: the projection -/

theorem V1_input (c : Dev nD) : V1 m ρ c main_arg0 = a0 m c := W1_of m ρ c main_arg0 (by decide)

theorem V1_weight (c : Dev nD) : V1 m ρ c main_v0 = Cert.ReferenceIdeal.Read.val_main_v0 (F := Ideal) (a6 m c) := by
  show StableHlo.after hostOps0 (W0 m ρ c) (Proc.devRef .tc main_v0) = _
  after_results
  rfl

theorem V1_bias (c : Dev nD) (j : Fin 128) : (V1 m ρ c main_v1 : S1x128.Idx → EReal) (ix2 (0 : Fin 1) j) = a7 m c (ix1 j) := by
  show StableHlo.after hostOps0 (W0 m ρ c) (Proc.devRef .tc main_v1) (ix2 (0 : Fin 1) j) = _
  after_results
  exact shapeCast_a_1a_apply _ _ 0 j

/-- The projection's output array is the reference's projection stage of the launch arrays. -/
theorem proj_value (c : Dev nD) :
    (dat0 (F := Ideal) (V1 m ρ) c).arrAt 3 cfg0.N = Cert.ReferenceIdeal.Read.val_main_v4 (F := Ideal) (a0 m c) (a6 m c) (a7 m c) := by
  rw [Cert.KernelIdeal.RegionValue.proj_array, Cert.ReferenceIdeal.RefValue.ref_dense, V1_input, V1_weight]
  exact congrArg (Cert.Spec.dense _ _) (funext fun j => V1_bias m ρ c j)

/-! ## The first aggregation and the first layer -/

set_option maxHeartbeats 1600000 in
theorem V3_input (c : Dev nD) :
    V3 m ρ c main_v19 = Cert.ReferenceIdeal.Read.val_main_v17 (F := Ideal) (a0 m c) (a1 m c) (a2 m c) (a3 m c) (a6 m c) (a7 m c) := by
  show StableHlo.after hostOps1 (W2 m ρ c) (Proc.devRef .tc main_v19) = _
  after_results_simp
  rw [W2_proj m ρ c, proj_value m ρ c, W2_launch m ρ c main_arg1 (by decide) (by decide), W2_launch m ρ c main_arg2 (by decide) (by decide),
    W2_launch m ρ c main_arg3 (by decide) (by decide)]
  unfold
    Cert.ReferenceIdeal.Read.val_main_v17 Cert.ReferenceIdeal.Read.val_main_v16 Cert.ReferenceIdeal.Read.val_main_v15
    Cert.ReferenceIdeal.Read.val_main_cst Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_c_0
    Cert.ReferenceIdeal.Read.val_main_v7 Cert.ReferenceIdeal.Read.val_main_v6 Cert.ReferenceIdeal.Read.val_main_c Cert.ReferenceIdeal.Read.val_main_v5
  rw [scatter_rows_rec, gather_rows_rec]

theorem V3_weight (c : Dev nD) : V3 m ρ c main_v3 = Cert.ReferenceIdeal.Read.val_main_v18 (F := Ideal) (a8 m c) := by
  show StableHlo.after hostOps1 (W2 m ρ c) (Proc.devRef .tc main_v3) = _
  after_results
  rw [W2_launch m ρ c main_arg8 (by decide) (by decide)]
  rfl

theorem V3_weight2 (c : Dev nD) : V3 m ρ c main_v4 = Cert.ReferenceIdeal.Read.val_main_v61 (F := Ideal) (a10 m c) := by
  show StableHlo.after hostOps1 (W2 m ρ c) (Proc.devRef .tc main_v4) = _
  after_results
  rw [W2_launch m ρ c main_arg10 (by decide) (by decide)]
  rfl

theorem V3_bias (c : Dev nD) (j : Fin 128) : (V3 m ρ c main_v20 : S1x128.Idx → EReal) (ix2 (0 : Fin 1) j) = a9 m c (ix1 j) := by
  show StableHlo.after hostOps1 (W2 m ρ c) (Proc.devRef .tc main_v20) (ix2 (0 : Fin 1) j) = _
  after_results
  rw [W2_launch m ρ c main_arg9 (by decide) (by decide)]
  exact shapeCast_a_1a_apply _ _ 0 j

theorem V3_gain (c : Dev nD) (j : Fin 128) : (V3 m ρ c main_v5 : S1x128.Idx → EReal) (ix2 (0 : Fin 1) j) = a12 m c (ix1 j) := by
  show StableHlo.after hostOps1 (W2 m ρ c) (Proc.devRef .tc main_v5) (ix2 (0 : Fin 1) j) = _
  after_results
  rw [W2_launch m ρ c main_arg12 (by decide) (by decide)]
  exact shapeCast_a_1a_apply _ _ 0 j

theorem V3_shift (c : Dev nD) (j : Fin 128) : (V3 m ρ c main_v6 : S1x128.Idx → EReal) (ix2 (0 : Fin 1) j) = a13 m c (ix1 j) := by
  show StableHlo.after hostOps1 (W2 m ρ c) (Proc.devRef .tc main_v6) (ix2 (0 : Fin 1) j) = _
  after_results
  rw [W2_launch m ρ c main_arg13 (by decide) (by decide)]
  exact shapeCast_a_1a_apply _ _ 0 j

/-- The first layer's output array is the reference's first layer stage of the launch arrays. -/
theorem layer1_value (c : Dev nD) :
    (dat1 (F := Ideal) (V3 m ρ) c).arrAt 5 cfg1.N
      = Cert.ReferenceIdeal.Read.val_main_v47 (F := Ideal) (a0 m c) (a1 m c) (a2 m c) (a3 m c) (a6 m c) (a7 m c) (a8 m c) (a9 m c) (a12 m c) (a13 m c) := by
  rw [Cert.KernelIdeal.RegionValue.layer_array1, Cert.ReferenceIdeal.RefValue.ref_layer1, V3_input, V3_weight]
  have e1 : (fun j => (V3 m ρ c main_v20 : S1x128.Idx → EReal) (ix2 (0 : Fin 1) j)) = fun j => a9 m c (ix1 j) := funext fun j => V3_bias m ρ c j
  have e2 : (fun j => (V3 m ρ c main_v5 : S1x128.Idx → EReal) (ix2 (0 : Fin 1) j)) = fun j => a12 m c (ix1 j) := funext fun j => V3_gain m ρ c j
  have e3 : (fun j => (V3 m ρ c main_v6 : S1x128.Idx → EReal) (ix2 (0 : Fin 1) j)) = fun j => a13 m c (ix1 j) := funext fun j => V3_shift m ρ c j
  rw [e1, e2, e3]

/-! ## The second aggregation and the second layer -/

set_option maxHeartbeats 1600000 in
theorem V5_input (c : Dev nD) :
    V5 m ρ c main_v34 = Cert.ReferenceIdeal.Read.val_main_v60 (F := Ideal) (a0 m c) (a1 m c) (a2 m c) (a3 m c) (a6 m c) (a7 m c) (a8 m c) (a9 m c) (a12 m c) (a13 m c) := by
  show StableHlo.after hostOps2 (W4 m ρ c) (Proc.devRef .tc main_v34) = _
  after_results_simp
  rw [W4_layer m ρ c, layer1_value m ρ c, W4_launch m ρ c main_arg1 (by decide) (by decide) (by decide) (by decide),
    W4_launch m ρ c main_arg2 (by decide) (by decide) (by decide) (by decide),
    W4_launch m ρ c main_arg3 (by decide) (by decide) (by decide) (by decide)]
  unfold
    Cert.ReferenceIdeal.Read.val_main_v60 Cert.ReferenceIdeal.Read.val_main_v59 Cert.ReferenceIdeal.Read.val_main_v58
    Cert.ReferenceIdeal.Read.val_main_cst_8 Cert.ReferenceIdeal.Read.val_main_v57 Cert.ReferenceIdeal.Read.val_main_v56
    Cert.ReferenceIdeal.Read.val_main_v55 Cert.ReferenceIdeal.Read.val_main_v54 Cert.ReferenceIdeal.Read.val_main_v53
    Cert.ReferenceIdeal.Read.val_main_v52 Cert.ReferenceIdeal.Read.val_main_v51 Cert.ReferenceIdeal.Read.val_main_c_7
    Cert.ReferenceIdeal.Read.val_main_v50 Cert.ReferenceIdeal.Read.val_main_v49 Cert.ReferenceIdeal.Read.val_main_c_6
    Cert.ReferenceIdeal.Read.val_main_v48
  rw [scatter_rows_rec, gather_rows_rec]

theorem V5_bias (c : Dev nD) (j : Fin 128) : (V5 m ρ c main_v35 : S1x128.Idx → EReal) (ix2 (0 : Fin 1) j) = a11 m c (ix1 j) := by
  show StableHlo.after hostOps2 (W4 m ρ c) (Proc.devRef .tc main_v35) (ix2 (0 : Fin 1) j) = _
  after_results
  rw [W4_launch m ρ c main_arg11 (by decide) (by decide) (by decide) (by decide)]
  exact shapeCast_a_1a_apply _ _ 0 j

/-- The second layer's output array is the reference's second layer stage of the launch arrays. -/
theorem layer2_value (c : Dev nD) :
    (dat2 (F := Ideal) (V5 m ρ) c).arrAt 5 cfg2.N
      = Cert.ReferenceIdeal.Read.val_main_v90 (F := Ideal) (a0 m c) (a1 m c) (a2 m c) (a3 m c) (a6 m c) (a7 m c) (a8 m c) (a9 m c) (a10 m c) (a11 m c) (a12 m c) (a13 m c) := by
  rw [Cert.KernelIdeal.RegionValue.layer_array2, Cert.ReferenceIdeal.RefValue.ref_layer2, V5_input, V5_weight, V3_weight2, V5_gain, V5_shift]
  have e1 : (fun j => (V5 m ρ c main_v35 : S1x128.Idx → EReal) (ix2 (0 : Fin 1) j)) = fun j => a11 m c (ix1 j) := funext fun j => V5_bias m ρ c j
  have e2 : (fun j => (V3 m ρ c main_v5 : S1x128.Idx → EReal) (ix2 (0 : Fin 1) j)) = fun j => a12 m c (ix1 j) := funext fun j => V3_gain m ρ c j
  have e3 : (fun j => (V3 m ρ c main_v6 : S1x128.Idx → EReal) (ix2 (0 : Fin 1) j)) = fun j => a13 m c (ix1 j) := funext fun j => V3_shift m ρ c j
  rw [e1, e2, e3]

end Cert.KernelIdeal.RunValue

end
-- ==== Proof.KResult.lean ====
/-
  The closing host operations: the residual sums, the four gathers (user and item embeddings, user and item biases), the
  row dot products and the bias sums are one term in both programs; applied to the second layer's output array, the
  projection's output array and the launch arrays, it gives the kernel's result buffer at the last boundary, which is
  therefore the reference's result stage of the launch arrays.
-/
import proofs.«104313_j32349693673727_1_alg».proof.Proof.KValue

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- Two arrays joined along an axis, with the two operands as plain arguments (the joined shapes fixed first). -/
def concatPair {α : Type} (t : Shape) (ax : Fin t.rank) (s1 s2 : Shape) (h : Shape.Concatenates [s1, s2] t ax)
    (a : s1.Idx → α) (b : s2.Idx → α) : t.Idx → α :=
  concatenate t ax [⟨s1, a⟩, ⟨s2, b⟩] h

/-- A join of two arrays is that function of its two operands. -/
theorem concatenate_pair {α : Type} (t : Shape) (ax : Fin t.rank) (s1 s2 : Shape) (a : s1.Idx → α) (b : s2.Idx → α)
    (h : Shape.Concatenates (List.map (fun p : (s : Shape) × (s.Idx → α) => p.1) [⟨s1, a⟩, ⟨s2, b⟩]) t ax) :
    concatenate t ax [⟨s1, a⟩, ⟨s2, b⟩] h = concatPair t ax s1 s2 h a b := rfl

/-! ## The closing host operations -/

set_option maxHeartbeats 3200000 in
/-- The kernel's result buffer at the last boundary is the reference's result stage of the launch arrays. -/
theorem result_value (c : Dev nD) :
    W7 m ρ c (Proc.devRef .tc main_v81)
      = Cert.ReferenceIdeal.Read.val_main_v135 (F := Ideal) (a0 m c) (a1 m c) (a2 m c) (a3 m c) (a4 m c) (a5 m c) (a6 m c) (a7 m c) (a8 m c) (a9 m c) (a10 m c)
          (a11 m c) (a12 m c) (a13 m c) (a14 m c) (a15 m c) (a16 m c) (a17 m c) (a18 m c) := by
  show StableHlo.after hostOps3 (W6 m ρ c) (Proc.devRef .tc main_v81) = _
  after_results_simp
  simp only [concatenate_pair]
  after_results_simp
  rw [W6_layer m ρ c, layer2_value m ρ c, W6_proj m ρ c, proj_value m ρ c,
    W6_launch m ρ c main_arg4 (by decide) (by decide) (by decide) (by decide) (by decide) (by decide),
    W6_launch m ρ c main_arg5 (by decide) (by decide) (by decide) (by decide) (by decide) (by decide),
    W6_launch m ρ c main_arg14 (by decide) (by decide) (by decide) (by decide) (by decide) (by decide),
    W6_launch m ρ c main_arg15 (by decide) (by decide) (by decide) (by decide) (by decide) (by decide),
    W6_launch m ρ c main_arg16 (by decide) (by decide) (by decide) (by decide) (by decide) (by decide),
    W6_launch m ρ c main_arg17 (by decide) (by decide) (by decide) (by decide) (by decide) (by decide),
    W6_launch m ρ c main_arg18 (by decide) (by decide) (by decide) (by decide) (by decide) (by decide)]
  unfold
    Cert.ReferenceIdeal.Read.val_main_v135 Cert.ReferenceIdeal.Read.val_main_v134 Cert.ReferenceIdeal.Read.val_main_cst_24
    Cert.ReferenceIdeal.Read.val_main_v133 Cert.ReferenceIdeal.Read.val_main_v132 Cert.ReferenceIdeal.Read.val_main_v131
    Cert.ReferenceIdeal.Read.val_main_v130 Cert.ReferenceIdeal.Read.val_main_v129 Cert.ReferenceIdeal.Read.val_main_v128
    Cert.ReferenceIdeal.Read.val_main_v127 Cert.ReferenceIdeal.Read.val_main_v126 Cert.ReferenceIdeal.Read.val_main_v125
    Cert.ReferenceIdeal.Read.val_main_v124 Cert.ReferenceIdeal.Read.val_main_v123 Cert.ReferenceIdeal.Read.val_main_c_23
    Cert.ReferenceIdeal.Read.val_main_v122 Cert.ReferenceIdeal.Read.val_main_v121 Cert.ReferenceIdeal.Read.val_main_v120
    Cert.ReferenceIdeal.Read.val_main_c_22 Cert.ReferenceIdeal.Read.val_main_v119 Cert.ReferenceIdeal.Read.val_main_v118
    Cert.ReferenceIdeal.Read.val_main_c_21 Cert.ReferenceIdeal.Read.val_main_v117 Cert.ReferenceIdeal.Read.val_main_v116
    Cert.ReferenceIdeal.Read.val_main_v115 Cert.ReferenceIdeal.Read.val_main_v114 Cert.ReferenceIdeal.Read.val_main_v113
    Cert.ReferenceIdeal.Read.val_main_v112 Cert.ReferenceIdeal.Read.val_main_c_20 Cert.ReferenceIdeal.Read.val_main_v111
    Cert.ReferenceIdeal.Read.val_main_v110 Cert.ReferenceIdeal.Read.val_main_v109 Cert.ReferenceIdeal.Read.val_main_c_19
    Cert.ReferenceIdeal.Read.val_main_v108 Cert.ReferenceIdeal.Read.val_main_v107 Cert.ReferenceIdeal.Read.val_main_c_18
    Cert.ReferenceIdeal.Read.val_main_v106 Cert.ReferenceIdeal.Read.val_main_v105 Cert.ReferenceIdeal.Read.val_main_v104
    Cert.ReferenceIdeal.Read.val_main_v103 Cert.ReferenceIdeal.Read.val_main_v102 Cert.ReferenceIdeal.Read.val_main_c_17
    Cert.ReferenceIdeal.Read.val_main_v101 Cert.ReferenceIdeal.Read.val_main_v100 Cert.ReferenceIdeal.Read.val_main_c_16
    Cert.ReferenceIdeal.Read.val_main_v99 Cert.ReferenceIdeal.Read.val_main_v98 Cert.ReferenceIdeal.Read.val_main_v97
    Cert.ReferenceIdeal.Read.val_main_v96 Cert.ReferenceIdeal.Read.val_main_v95 Cert.ReferenceIdeal.Read.val_main_c_15
    Cert.ReferenceIdeal.Read.val_main_v94 Cert.ReferenceIdeal.Read.val_main_v93 Cert.ReferenceIdeal.Read.val_main_c_14
    Cert.ReferenceIdeal.Read.val_main_v92 Cert.ReferenceIdeal.Read.val_main_v91
  simp only [concatenate_pair]
  rw [gather_user_rec, gather_item_rec, gather_user_bias_rec, gather_item_bias_rec]
  rfl

end Cert.KernelIdeal.RunValue

end
-- ==== Proof.lean ====
/-
  The certificate of the graph-convolution recommender: a program of three row-tiled kernels — the dense projection of
  the node features and, twice, a fused linear map + rectifier + row normalization — among host operations (two sparse
  aggregations by gather and scatter-add; the residual sums, embedding gathers, row dot products and bias sums at the
  end), against the plain array reference.

  At the ideal instance both programs compute the same function of the launch arrays, stage by stage: a row block of a
  dense map or of a normalized layer depends on the same rows of its input only, so the tiled evaluation is the whole
  one (Spec.lean, Region0/1/2.lean, RefSpec.lean); the host operations around the kernels are the same terms in both
  programs, applied to equal arrays (KValue.lean, KResult.lean). No law of the extended reals beyond congruence is used, so the
  finiteness precondition is never opened. The word-level program's frame and the idealized one's are the generated
  frames; the reference's frame is its generated run with the result dropped; the ideal pass rewrote nothing, so the
  preservation claim is trivial.
-/
import proofs.«104313_j32349693673727_1_alg».proof.Defs
import proofs.«104313_j32349693673727_1_alg».proof.Proof.Gen.Kernel
import proofs.«104313_j32349693673727_1_alg».proof.Proof.Gen.Kernel.Skeleton
import proofs.«104313_j32349693673727_1_alg».proof.Proof.Gen.Kernel.Launch
import proofs.«104313_j32349693673727_1_alg».proof.Proof.Gen.Kernel.Points
import proofs.«104313_j32349693673727_1_alg».proof.Proof.Gen.Kernel.Frame
import proofs.«104313_j32349693673727_1_alg».proof.Proof.Gen.KernelIdeal
import proofs.«104313_j32349693673727_1_alg».proof.Proof.Gen.KernelIdeal.Skeleton
import proofs.«104313_j32349693673727_1_alg».proof.Proof.Gen.KernelIdeal.Launch
import proofs.«104313_j32349693673727_1_alg».proof.Proof.Gen.KernelIdeal.Points
import proofs.«104313_j32349693673727_1_alg».proof.Proof.Gen.KernelIdeal.Frame
import proofs.«104313_j32349693673727_1_alg».proof.Proof.Gen.ReferenceIdeal
import proofs.«104313_j32349693673727_1_alg».proof.Proof.Gen.ReferenceIdeal.Run
import proofs.«104313_j32349693673727_1_alg».proof.Proof.Gen.ReferenceIdeal.Read
import proofs.«104313_j32349693673727_1_alg».proof.Proof.Gen.Pre_finite_inputs
import proofs.«104313_j32349693673727_1_alg».proof.Proof.KRun
import proofs.«104313_j32349693673727_1_alg».proof.Proof.KValue
import proofs.«104313_j32349693673727_1_alg».proof.Proof.KResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, with the result's value dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result: the kernel's result buffer
    holds the reference's result stage of the kernel's launch arrays, the reference's run ends at that stage of its own
    launch arrays, and the launch arrays agree. -/
theorem algebraic : Cert.algebraic_KernelIdeal_ReferenceIdeal := by
  intro m ρ m' ρ' _ hagree
  refine ⟨fun c => Cert.KernelIdeal.Gen.W7 m ρ c (Proc.devRef .tc Cert.KernelIdeal.main_v81),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.ReferenceIdeal.Read.val_main_v135_eq]
  show _ = Cert.KernelIdeal.Gen.W7 m ρ c (Proc.devRef .tc Cert.KernelIdeal.main_v81)
  rw [Cert.KernelIdeal.RunValue.result_value m ρ c, h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
